-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048x1 : Shape := ⟨4, ![16, 2048, 2048, 1]⟩
abbrev S_ : Shape := ⟨0, ![]⟩

class Facts : Prop where
  bcast_S_S16x2048x2048x1 : S_.BroadcastsInDim S16x2048x2048x1 (![] : Fin 0 → Fin S16x2048x2048x1.rank)
  reducesTo_S16x2048x2048x1_S_d0_1_2_3 : S16x2048x2048x1.ReducesTo [0, 1, 2, 3] S_
  h_S_ : 0 < S_.numel

variable [Facts]

def fn {F : FTy → Type} [FloatOps F] (main_arg0 : FVec F S16x2048x2048x1 .f32) : IVec S_ 1 :=
  let main_v0 : FVec F S16x2048x2048x1 .f32 := Host.absf main_arg0
  let main_cst : FVec F S_ .f32 := constant S_ .f32 0x7F800000#32
  let main_v1 : FVec F S16x2048x2048x1 .f32 := broadcastInDim S16x2048x2048x1 ![] bcast_S_S16x2048x2048x1 main_cst
  let main_v2 : IVec S16x2048x2048x1 1 := cmpf .olt main_v0 main_v1
  let main_c : IVec S_ 1 := constantI S_ 1 1#1
  let main_v3 : IVec S_ 1 := (fun x v => Host.reduce IntOp.andi x v reducesTo_S16x2048x2048x1_S_d0_1_2_3 h_S_) main_v2 main_c
  main_v3
-- ==== Kernel.lean ====
abbrev S16x2048x2048x1 : Shape := ⟨4, ![16, 2048, 2048, 1]⟩
abbrev S16x2048x2048 : Shape := ⟨3, ![16, 2048, 2048]⟩
abbrev S16x128x128 : Shape := ⟨3, ![16, 128, 128]⟩
abbrev S1x512x2048 : Shape := ⟨3, ![1, 512, 2048]⟩
abbrev S1x32x128 : Shape := ⟨3, ![1, 32, 128]⟩
abbrev S512x2048 : Shape := ⟨2, ![512, 2048]⟩
abbrev S32x16x2048 : Shape := ⟨3, ![32, 16, 2048]⟩
abbrev S32x2048 : Shape := ⟨2, ![32, 2048]⟩
abbrev S32x128x16 : Shape := ⟨3, ![32, 128, 16]⟩
abbrev S32x128 : Shape := ⟨2, ![32, 128]⟩
abbrev S_ : Shape := ⟨0, ![]⟩
abbrev S262144 : Shape := ⟨1, ![262144]⟩
abbrev S262144x1 : Shape := ⟨2, ![262144, 1]⟩
abbrev S262144x3 : Shape := ⟨2, ![262144, 3]⟩

abbrev nBuf : Space → Nat
  | .hbm => 177
  | .vmem => 4
  | .smem => 0
  | _ => 0

abbrev hbmTy0_0 (i : Nat) : BufTy := match i % 128 with
  | 0 => ⟨S16x2048x2048x1, .f32⟩
  | 1 => ⟨S16x2048x2048, .f32⟩
  | 2 => ⟨S16x128x128, .i32⟩
  | 3 => ⟨S_, .i32⟩
  | 4 => ⟨S16x128x128, .i32⟩
  | 5 => ⟨S16x128x128, .i1⟩
  | 6 => ⟨S_, .i32⟩
  | 7 => ⟨S_, .i32⟩
  | 8 => ⟨S262144, .i1⟩
  | 9 => ⟨S262144, .i32⟩
  | 10 => ⟨S_, .i32⟩
  | 11 => ⟨S_, .i32⟩
  | 12 => ⟨S262144, .i32⟩
  | 13 => ⟨S_, .i32⟩
  | 14 => ⟨S262144, .i32⟩
  | 15 => ⟨S_, .i32⟩
  | 16 => ⟨S_, .i32⟩
  | 17 => ⟨S262144, .i32⟩
  | 18 => ⟨S262144, .i32⟩
  | 19 => ⟨S_, .i32⟩
  | 20 => ⟨S262144, .i32⟩
  | 21 => ⟨S262144, .i1⟩
  | 22 => ⟨S_, .i32⟩
  | 23 => ⟨S262144, .i32⟩
  | 24 => ⟨S262144, .i32⟩
  | 25 => ⟨S262144, .i32⟩
  | 26 => ⟨S262144x1, .i32⟩
  | 27 => ⟨S_, .i32⟩
  | 28 => ⟨S262144, .i32⟩
  | 29 => ⟨S262144, .i32⟩
  | 30 => ⟨S_, .i32⟩
  | 31 => ⟨S_, .i32⟩
  | 32 => ⟨S262144, .i32⟩
  | 33 => ⟨S_, .i32⟩
  | 34 => ⟨S262144, .i32⟩
  | 35 => ⟨S262144, .i32⟩
  | 36 => ⟨S262144, .i32⟩
  | 37 => ⟨S_, .i32⟩
  | 38 => ⟨S262144, .i32⟩
  | 39 => ⟨S262144, .i1⟩
  | 40 => ⟨S262144, .i32⟩
  | 41 => ⟨S262144, .i32⟩
  | 42 => ⟨S_, .i32⟩
  | 43 => ⟨S262144, .i32⟩
  | 44 => ⟨S262144, .i1⟩
  | 45 => ⟨S262144, .i1⟩
  | 46 => ⟨S_, .i32⟩
  | 47 => ⟨S262144, .i32⟩
  | 48 => ⟨S262144, .i32⟩
  | 49 => ⟨S262144, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S262144, .i32⟩
  | 57 => ⟨S262144, .i32⟩
  | 58 => ⟨S_, .i32⟩
  | 59 => ⟨S262144, .i32⟩
  | 60 => ⟨S262144, .i1⟩
  | 61 => ⟨S_, .i32⟩
  | 62 => ⟨S262144, .i32⟩
  | 63 => ⟨S262144, .i1⟩
  | 64 => ⟨S_, .i32⟩
  | 65 => ⟨S_, .i1⟩
  | 66 => ⟨S262144, .i1⟩
  | 67 => ⟨S262144, .i1⟩
  | 68 => ⟨S262144, .i1⟩
  | 69 => ⟨S262144, .i32⟩
  | 70 => ⟨S262144, .i32⟩
  | 71 => ⟨S262144, .i32⟩
  | 72 => ⟨S262144, .i32⟩
  | 73 => ⟨S262144, .i32⟩
  | 74 => ⟨S_, .i32⟩
  | 75 => ⟨S_, .i32⟩
  | 76 => ⟨S262144, .i32⟩
  | 77 => ⟨S262144, .i1⟩
  | 78 => ⟨S_, .i32⟩
  | 79 => ⟨S_, .i32⟩
  | 80 => ⟨S262144, .i32⟩
  | 81 => ⟨S262144, .i32⟩
  | 82 => ⟨S_, .i32⟩
  | 83 => ⟨S262144, .i32⟩
  | 84 => ⟨S262144, .i1⟩
  | 85 => ⟨S_, .i32⟩
  | 86 => ⟨S262144, .i32⟩
  | 87 => ⟨S262144, .i32⟩
  | 88 => ⟨S_, .i32⟩
  | 89 => ⟨S_, .i32⟩
  | 90 => ⟨S262144, .i32⟩
  | 91 => ⟨S262144, .i32⟩
  | 92 => ⟨S262144, .i32⟩
  | 93 => ⟨S_, .i32⟩
  | 94 => ⟨S262144, .i32⟩
  | 95 => ⟨S262144, .i1⟩
  | 96 => ⟨S262144, .i32⟩
  | 97 => ⟨S262144, .i32⟩
  | 98 => ⟨S_, .i32⟩
  | 99 => ⟨S262144, .i32⟩
  | 100 => ⟨S262144, .i1⟩
  | 101 => ⟨S262144, .i1⟩
  | 102 => ⟨S_, .i32⟩
  | 103 => ⟨S262144, .i32⟩
  | 104 => ⟨S262144, .i32⟩
  | 105 => ⟨S262144, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S262144, .i32⟩
  | 113 => ⟨S262144, .i32⟩
  | 114 => ⟨S_, .i32⟩
  | 115 => ⟨S262144, .i32⟩
  | 116 => ⟨S262144, .i1⟩
  | 117 => ⟨S_, .i32⟩
  | 118 => ⟨S262144, .i32⟩
  | 119 => ⟨S262144, .i1⟩
  | 120 => ⟨S_, .i32⟩
  | 121 => ⟨S_, .i1⟩
  | 122 => ⟨S262144, .i1⟩
  | 123 => ⟨S262144, .i1⟩
  | 124 => ⟨S262144, .i1⟩
  | 125 => ⟨S262144, .i32⟩
  | 126 => ⟨S262144, .i32⟩
  | 127 => ⟨S262144, .i32⟩
  | _ => ⟨S16x2048x2048x1, .f32⟩

abbrev hbmTy0_1 (i : Nat) : BufTy := match i % 128 with
  | 0 => ⟨S_, .i32⟩
  | 1 => ⟨S_, .i32⟩
  | 2 => ⟨S262144, .i32⟩
  | 3 => ⟨S262144, .i32⟩
  | 4 => ⟨S262144, .i32⟩
  | 5 => ⟨S_, .i32⟩
  | 6 => ⟨S262144, .i32⟩
  | 7 => ⟨S262144, .i1⟩
  | 8 => ⟨S262144, .i32⟩
  | 9 => ⟨S262144, .i32⟩
  | 10 => ⟨S_, .i32⟩
  | 11 => ⟨S262144, .i32⟩
  | 12 => ⟨S262144, .i1⟩
  | 13 => ⟨S262144, .i1⟩
  | 14 => ⟨S_, .i32⟩
  | 15 => ⟨S262144, .i32⟩
  | 16 => ⟨S262144, .i32⟩
  | 17 => ⟨S262144, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S262144, .i32⟩
  | 25 => ⟨S262144, .i32⟩
  | 26 => ⟨S_, .i32⟩
  | 27 => ⟨S262144, .i32⟩
  | 28 => ⟨S262144, .i1⟩
  | 29 => ⟨S_, .i32⟩
  | 30 => ⟨S262144, .i32⟩
  | 31 => ⟨S262144, .i1⟩
  | 32 => ⟨S_, .i32⟩
  | 33 => ⟨S_, .i1⟩
  | 34 => ⟨S262144, .i1⟩
  | 35 => ⟨S262144, .i1⟩
  | 36 => ⟨S262144, .i1⟩
  | 37 => ⟨S262144, .i32⟩
  | 38 => ⟨S262144, .i32⟩
  | 39 => ⟨S262144, .i32⟩
  | 40 => ⟨S_, .i32⟩
  | 41 => ⟨S262144, .i32⟩
  | 42 => ⟨S262144, .i32⟩
  | 43 => ⟨S262144, .i32⟩
  | 44 => ⟨S262144, .i32⟩
  | 45 => ⟨S262144x1, .i32⟩
  | 46 => ⟨S262144x1, .i32⟩
  | 47 => ⟨S262144x1, .i32⟩
  | 48 => ⟨S262144x3, .i32⟩
  | _ => ⟨S16x2048x2048x1, .f32⟩

abbrev hbmTy (i : Nat) : BufTy := match i / 128 with
  | 0 => hbmTy0_0 i
  | 1 => hbmTy0_1 i
  | _ => ⟨S16x2048x2048x1, .f32⟩

abbrev bufTy : (tb : Table) → Fin (tcTables nBuf tb) → BufTy
  | .hbm, ⟨i, _⟩ => hbmTy i
  | .local _ .vmem, ⟨0, _⟩ => ⟨S1x512x2048, .f32⟩
  | .local _ .vmem, ⟨1, _⟩ => ⟨S1x512x2048, .f32⟩
  | .local _ .vmem, ⟨2, _⟩ => ⟨S1x32x128, .i32⟩
  | .local _ .vmem, ⟨3, _⟩ => ⟨S1x32x128, .i32⟩
  | _, _ => ⟨S16x2048x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_call2_call0_c : Ref sig .tc := ⟨.hbm, 30, rfl⟩
abbrev main_call2_call0_v0 : Ref sig .tc := ⟨.hbm, 31, rfl⟩
abbrev main_v17 : Ref sig .tc := ⟨.hbm, 32, rfl⟩
abbrev main_c_6 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_v6 : Ref sig .tc := ⟨.hbm, 40, rfl⟩
abbrev main_call3_v7 : Ref sig .tc := ⟨.hbm, 41, rfl⟩
abbrev main_call3_c : Ref sig .tc := ⟨.hbm, 42, rfl⟩
abbrev main_call3_v8 : Ref sig .tc := ⟨.hbm, 43, rfl⟩
abbrev main_call3_v9 : Ref sig .tc := ⟨.hbm, 44, rfl⟩
abbrev main_call3_v10 : Ref sig .tc := ⟨.hbm, 45, rfl⟩
abbrev main_call3_c_0 : Ref sig .tc := ⟨.hbm, 46, rfl⟩
abbrev main_call3_v11 : Ref sig .tc := ⟨.hbm, 47, rfl⟩
abbrev main_call3_v12 : Ref sig .tc := ⟨.hbm, 48, rfl⟩
abbrev main_v18 : Ref sig .tc := ⟨.hbm, 49, rfl⟩
abbrev main_c_7 : Ref sig .tc := ⟨.hbm, 50, rfl⟩
abbrev main_call4_v0 : Ref sig .tc := ⟨.hbm, 51, rfl⟩
abbrev main_call4_c : Ref sig .tc := ⟨.hbm, 52, rfl⟩
abbrev main_call4_v1 : Ref sig .tc := ⟨.hbm, 53, rfl⟩
abbrev main_call4_c_0 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_c_1 : Ref sig .tc := ⟨.hbm, 58, rfl⟩
abbrev main_call4_v5 : Ref sig .tc := ⟨.hbm, 59, rfl⟩
abbrev main_call4_v6 : Ref sig .tc := ⟨.hbm, 60, rfl⟩
abbrev main_call4_c_2 : Ref sig .tc := ⟨.hbm, 61, rfl⟩
abbrev main_call4_v7 : Ref sig .tc := ⟨.hbm, 62, rfl⟩
abbrev main_call4_v8 : Ref sig .tc := ⟨.hbm, 63, rfl⟩
abbrev main_call4_c_3 : Ref sig .tc := ⟨.hbm, 64, rfl⟩
abbrev main_call4_v9 : Ref sig .tc := ⟨.hbm, 65, rfl⟩
abbrev main_call4_v10 : Ref sig .tc := ⟨.hbm, 66, rfl⟩
abbrev main_call4_v11 : Ref sig .tc := ⟨.hbm, 67, rfl⟩
abbrev main_call4_v12 : Ref sig .tc := ⟨.hbm, 68, rfl⟩
abbrev main_call4_v13 : Ref sig .tc := ⟨.hbm, 69, rfl⟩
abbrev main_call4_v14 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_c_8 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_c_9 : Ref sig .tc := ⟨.hbm, 78, rfl⟩
abbrev main_call5_v0 : Ref sig .tc := ⟨.hbm, 79, rfl⟩
abbrev main_call5_v1 : Ref sig .tc := ⟨.hbm, 80, rfl⟩
abbrev main_v25 : Ref sig .tc := ⟨.hbm, 81, rfl⟩
abbrev main_c_10 : Ref sig .tc := ⟨.hbm, 82, rfl⟩
abbrev main_v26 : Ref sig .tc := ⟨.hbm, 83, rfl⟩
abbrev main_v27 : Ref sig .tc := ⟨.hbm, 84, rfl⟩
abbrev main_c_11 : Ref sig .tc := ⟨.hbm, 85, rfl⟩
abbrev main_v28 : Ref sig .tc := ⟨.hbm, 86, rfl⟩
abbrev main_v29 : Ref sig .tc := ⟨.hbm, 87, rfl⟩
abbrev main_c_12 : Ref sig .tc := ⟨.hbm, 88, rfl⟩
abbrev main_call6_v0 : Ref sig .tc := ⟨.hbm, 89, rfl⟩
abbrev main_call6_v1 : Ref sig .tc := ⟨.hbm, 90, rfl⟩
abbrev main_call6_v2 : Ref sig .tc := ⟨.hbm, 91, rfl⟩
abbrev main_call6_v3 : Ref sig .tc := ⟨.hbm, 92, rfl⟩
abbrev main_call6_v4 : Ref sig .tc := ⟨.hbm, 93, rfl⟩
abbrev main_call6_v5 : Ref sig .tc := ⟨.hbm, 94, rfl⟩
abbrev main_call6_v6 : Ref sig .tc := ⟨.hbm, 95, rfl⟩
abbrev main_call6_v7 : Ref sig .tc := ⟨.hbm, 96, rfl⟩
abbrev main_call6_v8 : Ref sig .tc := ⟨.hbm, 97, rfl⟩
abbrev main_call6_c : Ref sig .tc := ⟨.hbm, 98, rfl⟩
abbrev main_call6_v9 : Ref sig .tc := ⟨.hbm, 99, rfl⟩
abbrev main_call6_v10 : Ref sig .tc := ⟨.hbm, 100, rfl⟩
abbrev main_call6_v11 : Ref sig .tc := ⟨.hbm, 101, rfl⟩
abbrev main_call6_c_0 : Ref sig .tc := ⟨.hbm, 102, rfl⟩
abbrev main_call6_v12 : Ref sig .tc := ⟨.hbm, 103, rfl⟩
abbrev main_call6_v13 : Ref sig .tc := ⟨.hbm, 104, rfl⟩
abbrev main_v30 : Ref sig .tc := ⟨.hbm, 105, rfl⟩
abbrev main_c_13 : Ref sig .tc := ⟨.hbm, 106, rfl⟩
abbrev main_call7_v0 : Ref sig .tc := ⟨.hbm, 107, rfl⟩
abbrev main_call7_c : Ref sig .tc := ⟨.hbm, 108, rfl⟩
abbrev main_call7_v1 : Ref sig .tc := ⟨.hbm, 109, rfl⟩
abbrev main_call7_c_0 : Ref sig .tc := ⟨.hbm, 110, rfl⟩
abbrev main_call7_v2 : Ref sig .tc := ⟨.hbm, 111, rfl⟩
abbrev main_call7_v3 : Ref sig .tc := ⟨.hbm, 112, rfl⟩
abbrev main_call7_v4 : Ref sig .tc := ⟨.hbm, 113, rfl⟩
abbrev main_call7_c_1 : Ref sig .tc := ⟨.hbm, 114, rfl⟩
abbrev main_call7_v5 : Ref sig .tc := ⟨.hbm, 115, rfl⟩
abbrev main_call7_v6 : Ref sig .tc := ⟨.hbm, 116, rfl⟩
abbrev main_call7_c_2 : Ref sig .tc := ⟨.hbm, 117, rfl⟩
abbrev main_call7_v7 : Ref sig .tc := ⟨.hbm, 118, rfl⟩
abbrev main_call7_v8 : Ref sig .tc := ⟨.hbm, 119, rfl⟩
abbrev main_call7_c_3 : Ref sig .tc := ⟨.hbm, 120, rfl⟩
abbrev main_call7_v9 : Ref sig .tc := ⟨.hbm, 121, rfl⟩
abbrev main_call7_v10 : Ref sig .tc := ⟨.hbm, 122, rfl⟩
abbrev main_call7_v11 : Ref sig .tc := ⟨.hbm, 123, rfl⟩
abbrev main_call7_v12 : Ref sig .tc := ⟨.hbm, 124, rfl⟩
abbrev main_call7_v13 : Ref sig .tc := ⟨.hbm, 125, rfl⟩
abbrev main_call7_v14 : Ref sig .tc := ⟨.hbm, 126, rfl⟩
abbrev main_v31 : Ref sig .tc := ⟨.hbm, 127, rfl⟩
abbrev main_c_14 : Ref sig .tc := ⟨.hbm, 128, rfl⟩
abbrev main_call8_v0 : Ref sig .tc := ⟨.hbm, 129, rfl⟩
abbrev main_call8_v1 : Ref sig .tc := ⟨.hbm, 130, rfl⟩
abbrev main_call8_v2 : Ref sig .tc := ⟨.hbm, 131, rfl⟩
abbrev main_call8_v3 : Ref sig .tc := ⟨.hbm, 132, rfl⟩
abbrev main_call8_v4 : Ref sig .tc := ⟨.hbm, 133, rfl⟩
abbrev main_call8_v5 : Ref sig .tc := ⟨.hbm, 134, rfl⟩
abbrev main_call8_v6 : Ref sig .tc := ⟨.hbm, 135, rfl⟩
abbrev main_call8_v7 : Ref sig .tc := ⟨.hbm, 136, rfl⟩
abbrev main_call8_v8 : Ref sig .tc := ⟨.hbm, 137, rfl⟩
abbrev main_call8_c : Ref sig .tc := ⟨.hbm, 138, rfl⟩
abbrev main_call8_v9 : Ref sig .tc := ⟨.hbm, 139, rfl⟩
abbrev main_call8_v10 : Ref sig .tc := ⟨.hbm, 140, rfl⟩
abbrev main_call8_v11 : Ref sig .tc := ⟨.hbm, 141, rfl⟩
abbrev main_call8_c_0 : Ref sig .tc := ⟨.hbm, 142, rfl⟩
abbrev main_call8_v12 : Ref sig .tc := ⟨.hbm, 143, rfl⟩
abbrev main_call8_v13 : Ref sig .tc := ⟨.hbm, 144, rfl⟩
abbrev main_v32 : Ref sig .tc := ⟨.hbm, 145, rfl⟩
abbrev main_c_15 : Ref sig .tc := ⟨.hbm, 146, rfl⟩
abbrev main_call9_v0 : Ref sig .tc := ⟨.hbm, 147, rfl⟩
abbrev main_call9_c : Ref sig .tc := ⟨.hbm, 148, rfl⟩
abbrev main_call9_v1 : Ref sig .tc := ⟨.hbm, 149, rfl⟩
abbrev main_call9_c_0 : Ref sig .tc := ⟨.hbm, 150, rfl⟩
abbrev main_call9_v2 : Ref sig .tc := ⟨.hbm, 151, rfl⟩
abbrev main_call9_v3 : Ref sig .tc := ⟨.hbm, 152, rfl⟩
abbrev main_call9_v4 : Ref sig .tc := ⟨.hbm, 153, rfl⟩
abbrev main_call9_c_1 : Ref sig .tc := ⟨.hbm, 154, rfl⟩
abbrev main_call9_v5 : Ref sig .tc := ⟨.hbm, 155, rfl⟩
abbrev main_call9_v6 : Ref sig .tc := ⟨.hbm, 156, rfl⟩
abbrev main_call9_c_2 : Ref sig .tc := ⟨.hbm, 157, rfl⟩
abbrev main_call9_v7 : Ref sig .tc := ⟨.hbm, 158, rfl⟩
abbrev main_call9_v8 : Ref sig .tc := ⟨.hbm, 159, rfl⟩
abbrev main_call9_c_3 : Ref sig .tc := ⟨.hbm, 160, rfl⟩
abbrev main_call9_v9 : Ref sig .tc := ⟨.hbm, 161, rfl⟩
abbrev main_call9_v10 : Ref sig .tc := ⟨.hbm, 162, rfl⟩
abbrev main_call9_v11 : Ref sig .tc := ⟨.hbm, 163, rfl⟩
abbrev main_call9_v12 : Ref sig .tc := ⟨.hbm, 164, rfl⟩
abbrev main_call9_v13 : Ref sig .tc := ⟨.hbm, 165, rfl⟩
abbrev main_call9_v14 : Ref sig .tc := ⟨.hbm, 166, rfl⟩
abbrev main_v33 : Ref sig .tc := ⟨.hbm, 167, rfl⟩
abbrev main_c_16 : Ref sig .tc := ⟨.hbm, 168, rfl⟩
abbrev main_v34 : Ref sig .tc := ⟨.hbm, 169, rfl⟩
abbrev main_v35 : Ref sig .tc := ⟨.hbm, 170, rfl⟩
abbrev main_v36 : Ref sig .tc := ⟨.hbm, 171, rfl⟩
abbrev main_v37 : Ref sig .tc := ⟨.hbm, 172, rfl⟩
abbrev main_v38 : Ref sig .tc := ⟨.hbm, 173, rfl⟩
abbrev main_v39 : Ref sig .tc := ⟨.hbm, 174, rfl⟩
abbrev main_v40 : Ref sig .tc := ⟨.hbm, 175, rfl⟩
abbrev main_v41 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x2048x2048x1_S16x2048x2048 : S16x2048x2048x1.ShapeCasts S16x2048x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S32x16x2048 : S512x2048.ShapeCasts S32x16x2048
  reduces_S32x16x2048_S32x2048 : S32x16x2048.Reduces [1] S32x2048
  shapeCasts_S32x2048_S32x128x16 : S32x2048.ShapeCasts S32x128x16
  reduces_S32x128x16_S32x128 : S32x128x16.Reduces [2] S32x128
  natLt_1_32 : 1 < 32
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  bcast_S_S16x128x128 : S_.BroadcastsInDim S16x128x128 (![] : Fin 0 → Fin S16x128x128.rank)
  reducesTo_S16x128x128_S_d0_1_2 : S16x128x128.ReducesTo [0, 1, 2] S_
  h_S_ : 0 < S_.numel
  shapeCasts_S16x128x128_S262144 : S16x128x128.ShapeCasts S262144
  bcast_S_S_ : S_.BroadcastsInDim S_ (![] : Fin 0 → Fin S_.rank)
  reduceWindows_S262144_S262144_w262144s1p262143_0 : S262144.ReduceWindows (![262144] : Fin 1 → Nat) ![1] ![262143] ![0] S262144
  bcast_S_S262144 : S_.BroadcastsInDim S262144 (![] : Fin 0 → Fin S262144.rank)
  bcast_S262144_S262144x1_0 : S262144.BroadcastsInDim S262144x1 (![0] : Fin 1 → Fin S262144x1.rank)
  reducesTo_S262144_S_d0 : S262144.ReducesTo [0] S_
  concatenates_S262144x1_S262144x1_S262144x1_S262144x3_d1 : Shape.Concatenates [S262144x1, S262144x1, S262144x1] S262144x3 1
  scatter_S262144_S262144x1_S262144_n_0_0_1_wf : ScatterDims.WF S262144 S262144x1 S262144 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .f32 = 32 ∨ (Rect.block (s := S16x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128.size a ≤ S16x128x128.size a
  hwx0_1 : ∀ i : grid0.Coords, EltTy.bits .i32 = 32 ∨ (Rect.block (s := S16x128x128) S1x32x128.size (cc0_transform_1 i) (hinb0_1 i)).WholeWords (EltTy.packing .i32)

variable [Facts₀]

def scatter_S262144_S262144x1_S262144_n_0_0_1 : ScatterDims S262144 S262144x1 S262144 where
  updateWindowDims := []
  insertedWindowDims := [0]
  scatterDimsToOperandDims := [0]
  indexVectorDim := 1
  wf := scatter_S262144_S262144x1_S262144_n_0_0_1_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x2048x2048x1 : Shape := ⟨4, ![16, 2048, 2048, 1]⟩
abbrev S16x2048x2048 : Shape := ⟨3, ![16, 2048, 2048]⟩
abbrev S16x128x16x128x16 : Shape := ⟨5, ![16, 128, 16, 128, 16]⟩
abbrev S_ : Shape := ⟨0, ![]⟩
abbrev S16x128x128 : Shape := ⟨3, ![16, 128, 128]⟩
abbrev S262144 : Shape := ⟨1, ![262144]⟩
abbrev S262144x1 : Shape := ⟨2, ![262144, 1]⟩
abbrev S262144x3 : Shape := ⟨2, ![262144, 3]⟩

abbrev nBuf : Space → Nat
  | .hbm => 180
  | .vmem => 0
  | .smem => 0
  | _ => 0

abbrev hbmTy0_0 (i : Nat) : BufTy := match i % 128 with
  | 0 => ⟨S16x2048x2048x1, .f32⟩
  | 1 => ⟨S16x2048x2048, .f32⟩
  | 2 => ⟨S16x128x16x128x16, .f32⟩
  | 3 => ⟨S_, .f32⟩
  | 4 => ⟨S16x128x128, .f32⟩
  | 5 => ⟨S_, .f32⟩
  | 6 => ⟨S16x128x128, .f32⟩
  | 7 => ⟨S16x128x128, .i1⟩
  | 8 => ⟨S16x128x128, .i32⟩
  | 9 => ⟨S_, .i32⟩
  | 10 => ⟨S_, .i32⟩
  | 11 => ⟨S262144, .i1⟩
  | 12 => ⟨S262144, .i32⟩
  | 13 => ⟨S_, .i32⟩
  | 14 => ⟨S_, .i32⟩
  | 15 => ⟨S262144, .i32⟩
  | 16 => ⟨S_, .i32⟩
  | 17 => ⟨S262144, .i32⟩
  | 18 => ⟨S_, .i32⟩
  | 19 => ⟨S_, .i32⟩
  | 20 => ⟨S262144, .i32⟩
  | 21 => ⟨S262144, .i32⟩
  | 22 => ⟨S_, .i32⟩
  | 23 => ⟨S262144, .i32⟩
  | 24 => ⟨S262144, .i1⟩
  | 25 => ⟨S_, .i32⟩
  | 26 => ⟨S262144, .i32⟩
  | 27 => ⟨S262144, .i32⟩
  | 28 => ⟨S262144, .i32⟩
  | 29 => ⟨S262144x1, .i32⟩
  | 30 => ⟨S_, .i32⟩
  | 31 => ⟨S262144, .i32⟩
  | 32 => ⟨S262144, .i32⟩
  | 33 => ⟨S_, .i32⟩
  | 34 => ⟨S_, .i32⟩
  | 35 => ⟨S262144, .i32⟩
  | 36 => ⟨S_, .i32⟩
  | 37 => ⟨S262144, .i32⟩
  | 38 => ⟨S262144, .i32⟩
  | 39 => ⟨S262144, .i32⟩
  | 40 => ⟨S_, .i32⟩
  | 41 => ⟨S262144, .i32⟩
  | 42 => ⟨S262144, .i1⟩
  | 43 => ⟨S262144, .i32⟩
  | 44 => ⟨S262144, .i32⟩
  | 45 => ⟨S_, .i32⟩
  | 46 => ⟨S262144, .i32⟩
  | 47 => ⟨S262144, .i1⟩
  | 48 => ⟨S262144, .i1⟩
  | 49 => ⟨S_, .i32⟩
  | 50 => ⟨S262144, .i32⟩
  | 51 => ⟨S262144, .i32⟩
  | 52 => ⟨S262144, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S262144, .i32⟩
  | 60 => ⟨S262144, .i32⟩
  | 61 => ⟨S_, .i32⟩
  | 62 => ⟨S262144, .i32⟩
  | 63 => ⟨S262144, .i1⟩
  | 64 => ⟨S_, .i32⟩
  | 65 => ⟨S262144, .i32⟩
  | 66 => ⟨S262144, .i1⟩
  | 67 => ⟨S_, .i32⟩
  | 68 => ⟨S_, .i1⟩
  | 69 => ⟨S262144, .i1⟩
  | 70 => ⟨S262144, .i1⟩
  | 71 => ⟨S262144, .i1⟩
  | 72 => ⟨S262144, .i32⟩
  | 73 => ⟨S262144, .i32⟩
  | 74 => ⟨S262144, .i32⟩
  | 75 => ⟨S262144, .i32⟩
  | 76 => ⟨S262144, .i32⟩
  | 77 => ⟨S_, .i32⟩
  | 78 => ⟨S_, .i32⟩
  | 79 => ⟨S262144, .i32⟩
  | 80 => ⟨S262144, .i1⟩
  | 81 => ⟨S_, .i32⟩
  | 82 => ⟨S_, .i32⟩
  | 83 => ⟨S262144, .i32⟩
  | 84 => ⟨S262144, .i32⟩
  | 85 => ⟨S_, .i32⟩
  | 86 => ⟨S262144, .i32⟩
  | 87 => ⟨S262144, .i1⟩
  | 88 => ⟨S_, .i32⟩
  | 89 => ⟨S262144, .i32⟩
  | 90 => ⟨S262144, .i32⟩
  | 91 => ⟨S_, .i32⟩
  | 92 => ⟨S_, .i32⟩
  | 93 => ⟨S262144, .i32⟩
  | 94 => ⟨S262144, .i32⟩
  | 95 => ⟨S262144, .i32⟩
  | 96 => ⟨S_, .i32⟩
  | 97 => ⟨S262144, .i32⟩
  | 98 => ⟨S262144, .i1⟩
  | 99 => ⟨S262144, .i32⟩
  | 100 => ⟨S262144, .i32⟩
  | 101 => ⟨S_, .i32⟩
  | 102 => ⟨S262144, .i32⟩
  | 103 => ⟨S262144, .i1⟩
  | 104 => ⟨S262144, .i1⟩
  | 105 => ⟨S_, .i32⟩
  | 106 => ⟨S262144, .i32⟩
  | 107 => ⟨S262144, .i32⟩
  | 108 => ⟨S262144, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S262144, .i32⟩
  | 116 => ⟨S262144, .i32⟩
  | 117 => ⟨S_, .i32⟩
  | 118 => ⟨S262144, .i32⟩
  | 119 => ⟨S262144, .i1⟩
  | 120 => ⟨S_, .i32⟩
  | 121 => ⟨S262144, .i32⟩
  | 122 => ⟨S262144, .i1⟩
  | 123 => ⟨S_, .i32⟩
  | 124 => ⟨S_, .i1⟩
  | 125 => ⟨S262144, .i1⟩
  | 126 => ⟨S262144, .i1⟩
  | 127 => ⟨S262144, .i1⟩
  | _ => ⟨S16x2048x2048x1, .f32⟩

abbrev hbmTy0_1 (i : Nat) : BufTy := match i % 128 with
  | 0 => ⟨S262144, .i32⟩
  | 1 => ⟨S262144, .i32⟩
  | 2 => ⟨S262144, .i32⟩
  | 3 => ⟨S_, .i32⟩
  | 4 => ⟨S_, .i32⟩
  | 5 => ⟨S262144, .i32⟩
  | 6 => ⟨S262144, .i32⟩
  | 7 => ⟨S262144, .i32⟩
  | 8 => ⟨S_, .i32⟩
  | 9 => ⟨S262144, .i32⟩
  | 10 => ⟨S262144, .i1⟩
  | 11 => ⟨S262144, .i32⟩
  | 12 => ⟨S262144, .i32⟩
  | 13 => ⟨S_, .i32⟩
  | 14 => ⟨S262144, .i32⟩
  | 15 => ⟨S262144, .i1⟩
  | 16 => ⟨S262144, .i1⟩
  | 17 => ⟨S_, .i32⟩
  | 18 => ⟨S262144, .i32⟩
  | 19 => ⟨S262144, .i32⟩
  | 20 => ⟨S262144, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S262144, .i32⟩
  | 28 => ⟨S262144, .i32⟩
  | 29 => ⟨S_, .i32⟩
  | 30 => ⟨S262144, .i32⟩
  | 31 => ⟨S262144, .i1⟩
  | 32 => ⟨S_, .i32⟩
  | 33 => ⟨S262144, .i32⟩
  | 34 => ⟨S262144, .i1⟩
  | 35 => ⟨S_, .i32⟩
  | 36 => ⟨S_, .i1⟩
  | 37 => ⟨S262144, .i1⟩
  | 38 => ⟨S262144, .i1⟩
  | 39 => ⟨S262144, .i1⟩
  | 40 => ⟨S262144, .i32⟩
  | 41 => ⟨S262144, .i32⟩
  | 42 => ⟨S262144, .i32⟩
  | 43 => ⟨S_, .i32⟩
  | 44 => ⟨S262144, .i32⟩
  | 45 => ⟨S262144, .i32⟩
  | 46 => ⟨S262144, .i32⟩
  | 47 => ⟨S262144, .i32⟩
  | 48 => ⟨S262144x1, .i32⟩
  | 49 => ⟨S262144x1, .i32⟩
  | 50 => ⟨S262144x1, .i32⟩
  | 51 => ⟨S262144x3, .i32⟩
  | _ => ⟨S16x2048x2048x1, .f32⟩

abbrev hbmTy (i : Nat) : BufTy := match i / 128 with
  | 0 => hbmTy0_0 i
  | 1 => hbmTy0_1 i
  | _ => ⟨S16x2048x2048x1, .f32⟩

abbrev bufTy : (tb : Table) → Fin (tcTables nBuf tb) → BufTy
  | .hbm, ⟨i, _⟩ => hbmTy i
  | _, _ => ⟨S16x2048x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_call0_c : Ref sig .tc := ⟨.hbm, 13, rfl⟩
abbrev main_call0_call0_v0 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_call2_call0_c : Ref sig .tc := ⟨.hbm, 33, rfl⟩
abbrev main_call2_call0_v0 : Ref sig .tc := ⟨.hbm, 34, rfl⟩
abbrev main_v19 : Ref sig .tc := ⟨.hbm, 35, rfl⟩
abbrev main_c_6 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_v6 : Ref sig .tc := ⟨.hbm, 43, rfl⟩
abbrev main_call3_v7 : Ref sig .tc := ⟨.hbm, 44, rfl⟩
abbrev main_call3_c : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_c_0 : Ref sig .tc := ⟨.hbm, 49, rfl⟩
abbrev main_call3_v11 : Ref sig .tc := ⟨.hbm, 50, rfl⟩
abbrev main_call3_v12 : Ref sig .tc := ⟨.hbm, 51, rfl⟩
abbrev main_v20 : Ref sig .tc := ⟨.hbm, 52, rfl⟩
abbrev main_c_7 : Ref sig .tc := ⟨.hbm, 53, rfl⟩
abbrev main_call4_v0 : Ref sig .tc := ⟨.hbm, 54, rfl⟩
abbrev main_call4_c : Ref sig .tc := ⟨.hbm, 55, rfl⟩
abbrev main_call4_v1 : Ref sig .tc := ⟨.hbm, 56, rfl⟩
abbrev main_call4_c_0 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_c_1 : Ref sig .tc := ⟨.hbm, 61, rfl⟩
abbrev main_call4_v5 : Ref sig .tc := ⟨.hbm, 62, rfl⟩
abbrev main_call4_v6 : Ref sig .tc := ⟨.hbm, 63, rfl⟩
abbrev main_call4_c_2 : Ref sig .tc := ⟨.hbm, 64, rfl⟩
abbrev main_call4_v7 : Ref sig .tc := ⟨.hbm, 65, rfl⟩
abbrev main_call4_v8 : Ref sig .tc := ⟨.hbm, 66, rfl⟩
abbrev main_call4_c_3 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_v12 : Ref sig .tc := ⟨.hbm, 71, rfl⟩
abbrev main_call4_v13 : Ref sig .tc := ⟨.hbm, 72, rfl⟩
abbrev main_call4_v14 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_c_8 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_c_9 : Ref sig .tc := ⟨.hbm, 81, rfl⟩
abbrev main_call5_v0 : Ref sig .tc := ⟨.hbm, 82, rfl⟩
abbrev main_call5_v1 : Ref sig .tc := ⟨.hbm, 83, rfl⟩
abbrev main_v27 : Ref sig .tc := ⟨.hbm, 84, rfl⟩
abbrev main_c_10 : Ref sig .tc := ⟨.hbm, 85, rfl⟩
abbrev main_v28 : Ref sig .tc := ⟨.hbm, 86, rfl⟩
abbrev main_v29 : Ref sig .tc := ⟨.hbm, 87, rfl⟩
abbrev main_c_11 : Ref sig .tc := ⟨.hbm, 88, rfl⟩
abbrev main_v30 : Ref sig .tc := ⟨.hbm, 89, rfl⟩
abbrev main_v31 : Ref sig .tc := ⟨.hbm, 90, rfl⟩
abbrev main_c_12 : Ref sig .tc := ⟨.hbm, 91, rfl⟩
abbrev main_call6_v0 : Ref sig .tc := ⟨.hbm, 92, rfl⟩
abbrev main_call6_v1 : Ref sig .tc := ⟨.hbm, 93, rfl⟩
abbrev main_call6_v2 : Ref sig .tc := ⟨.hbm, 94, rfl⟩
abbrev main_call6_v3 : Ref sig .tc := ⟨.hbm, 95, rfl⟩
abbrev main_call6_v4 : Ref sig .tc := ⟨.hbm, 96, rfl⟩
abbrev main_call6_v5 : Ref sig .tc := ⟨.hbm, 97, rfl⟩
abbrev main_call6_v6 : Ref sig .tc := ⟨.hbm, 98, rfl⟩
abbrev main_call6_v7 : Ref sig .tc := ⟨.hbm, 99, rfl⟩
abbrev main_call6_v8 : Ref sig .tc := ⟨.hbm, 100, rfl⟩
abbrev main_call6_c : Ref sig .tc := ⟨.hbm, 101, rfl⟩
abbrev main_call6_v9 : Ref sig .tc := ⟨.hbm, 102, rfl⟩
abbrev main_call6_v10 : Ref sig .tc := ⟨.hbm, 103, rfl⟩
abbrev main_call6_v11 : Ref sig .tc := ⟨.hbm, 104, rfl⟩
abbrev main_call6_c_0 : Ref sig .tc := ⟨.hbm, 105, rfl⟩
abbrev main_call6_v12 : Ref sig .tc := ⟨.hbm, 106, rfl⟩
abbrev main_call6_v13 : Ref sig .tc := ⟨.hbm, 107, rfl⟩
abbrev main_v32 : Ref sig .tc := ⟨.hbm, 108, rfl⟩
abbrev main_c_13 : Ref sig .tc := ⟨.hbm, 109, rfl⟩
abbrev main_call7_v0 : Ref sig .tc := ⟨.hbm, 110, rfl⟩
abbrev main_call7_c : Ref sig .tc := ⟨.hbm, 111, rfl⟩
abbrev main_call7_v1 : Ref sig .tc := ⟨.hbm, 112, rfl⟩
abbrev main_call7_c_0 : Ref sig .tc := ⟨.hbm, 113, rfl⟩
abbrev main_call7_v2 : Ref sig .tc := ⟨.hbm, 114, rfl⟩
abbrev main_call7_v3 : Ref sig .tc := ⟨.hbm, 115, rfl⟩
abbrev main_call7_v4 : Ref sig .tc := ⟨.hbm, 116, rfl⟩
abbrev main_call7_c_1 : Ref sig .tc := ⟨.hbm, 117, rfl⟩
abbrev main_call7_v5 : Ref sig .tc := ⟨.hbm, 118, rfl⟩
abbrev main_call7_v6 : Ref sig .tc := ⟨.hbm, 119, rfl⟩
abbrev main_call7_c_2 : Ref sig .tc := ⟨.hbm, 120, rfl⟩
abbrev main_call7_v7 : Ref sig .tc := ⟨.hbm, 121, rfl⟩
abbrev main_call7_v8 : Ref sig .tc := ⟨.hbm, 122, rfl⟩
abbrev main_call7_c_3 : Ref sig .tc := ⟨.hbm, 123, rfl⟩
abbrev main_call7_v9 : Ref sig .tc := ⟨.hbm, 124, rfl⟩
abbrev main_call7_v10 : Ref sig .tc := ⟨.hbm, 125, rfl⟩
abbrev main_call7_v11 : Ref sig .tc := ⟨.hbm, 126, rfl⟩
abbrev main_call7_v12 : Ref sig .tc := ⟨.hbm, 127, rfl⟩
abbrev main_call7_v13 : Ref sig .tc := ⟨.hbm, 128, rfl⟩
abbrev main_call7_v14 : Ref sig .tc := ⟨.hbm, 129, rfl⟩
abbrev main_v33 : Ref sig .tc := ⟨.hbm, 130, rfl⟩
abbrev main_c_14 : Ref sig .tc := ⟨.hbm, 131, rfl⟩
abbrev main_call8_v0 : Ref sig .tc := ⟨.hbm, 132, rfl⟩
abbrev main_call8_v1 : Ref sig .tc := ⟨.hbm, 133, rfl⟩
abbrev main_call8_v2 : Ref sig .tc := ⟨.hbm, 134, rfl⟩
abbrev main_call8_v3 : Ref sig .tc := ⟨.hbm, 135, rfl⟩
abbrev main_call8_v4 : Ref sig .tc := ⟨.hbm, 136, rfl⟩
abbrev main_call8_v5 : Ref sig .tc := ⟨.hbm, 137, rfl⟩
abbrev main_call8_v6 : Ref sig .tc := ⟨.hbm, 138, rfl⟩
abbrev main_call8_v7 : Ref sig .tc := ⟨.hbm, 139, rfl⟩
abbrev main_call8_v8 : Ref sig .tc := ⟨.hbm, 140, rfl⟩
abbrev main_call8_c : Ref sig .tc := ⟨.hbm, 141, rfl⟩
abbrev main_call8_v9 : Ref sig .tc := ⟨.hbm, 142, rfl⟩
abbrev main_call8_v10 : Ref sig .tc := ⟨.hbm, 143, rfl⟩
abbrev main_call8_v11 : Ref sig .tc := ⟨.hbm, 144, rfl⟩
abbrev main_call8_c_0 : Ref sig .tc := ⟨.hbm, 145, rfl⟩
abbrev main_call8_v12 : Ref sig .tc := ⟨.hbm, 146, rfl⟩
abbrev main_call8_v13 : Ref sig .tc := ⟨.hbm, 147, rfl⟩
abbrev main_v34 : Ref sig .tc := ⟨.hbm, 148, rfl⟩
abbrev main_c_15 : Ref sig .tc := ⟨.hbm, 149, rfl⟩
abbrev main_call9_v0 : Ref sig .tc := ⟨.hbm, 150, rfl⟩
abbrev main_call9_c : Ref sig .tc := ⟨.hbm, 151, rfl⟩
abbrev main_call9_v1 : Ref sig .tc := ⟨.hbm, 152, rfl⟩
abbrev main_call9_c_0 : Ref sig .tc := ⟨.hbm, 153, rfl⟩
abbrev main_call9_v2 : Ref sig .tc := ⟨.hbm, 154, rfl⟩
abbrev main_call9_v3 : Ref sig .tc := ⟨.hbm, 155, rfl⟩
abbrev main_call9_v4 : Ref sig .tc := ⟨.hbm, 156, rfl⟩
abbrev main_call9_c_1 : Ref sig .tc := ⟨.hbm, 157, rfl⟩
abbrev main_call9_v5 : Ref sig .tc := ⟨.hbm, 158, rfl⟩
abbrev main_call9_v6 : Ref sig .tc := ⟨.hbm, 159, rfl⟩
abbrev main_call9_c_2 : Ref sig .tc := ⟨.hbm, 160, rfl⟩
abbrev main_call9_v7 : Ref sig .tc := ⟨.hbm, 161, rfl⟩
abbrev main_call9_v8 : Ref sig .tc := ⟨.hbm, 162, rfl⟩
abbrev main_call9_c_3 : Ref sig .tc := ⟨.hbm, 163, rfl⟩
abbrev main_call9_v9 : Ref sig .tc := ⟨.hbm, 164, rfl⟩
abbrev main_call9_v10 : Ref sig .tc := ⟨.hbm, 165, rfl⟩
abbrev main_call9_v11 : Ref sig .tc := ⟨.hbm, 166, rfl⟩
abbrev main_call9_v12 : Ref sig .tc := ⟨.hbm, 167, rfl⟩
abbrev main_call9_v13 : Ref sig .tc := ⟨.hbm, 168, rfl⟩
abbrev main_call9_v14 : Ref sig .tc := ⟨.hbm, 169, rfl⟩
abbrev main_v35 : Ref sig .tc := ⟨.hbm, 170, rfl⟩
abbrev main_c_16 : Ref sig .tc := ⟨.hbm, 171, rfl⟩
abbrev main_v36 : Ref sig .tc := ⟨.hbm, 172, rfl⟩
abbrev main_v37 : Ref sig .tc := ⟨.hbm, 173, rfl⟩
abbrev main_v38 : Ref sig .tc := ⟨.hbm, 174, rfl⟩
abbrev main_v39 : Ref sig .tc := ⟨.hbm, 175, rfl⟩
abbrev main_v40 : Ref sig .tc := ⟨.hbm, 176, rfl⟩
abbrev main_v41 : Ref sig .tc := ⟨.hbm, 177, rfl⟩
abbrev main_v42 : Ref sig .tc := ⟨.hbm, 178, rfl⟩
abbrev main_v43 : Ref sig .tc := ⟨.hbm, 179, rfl⟩

abbrev nD : Nat := 1
abbrev τ : Topo := Topo.v7x

variable {F : FTy → Type} [FloatOps F]

class Facts₀ : Prop where
  shapeCasts_S16x2048x2048x1_S16x2048x2048 : S16x2048x2048x1.ShapeCasts S16x2048x2048
  shapeCasts_S16x2048x2048_S16x128x16x128x16 : S16x2048x2048.ShapeCasts S16x128x16x128x16
  reducesTo_S16x128x16x128x16_S16x128x128_d2_4 : S16x128x16x128x16.ReducesTo [2, 4] S16x128x128
  h_S_ : 0 < S_.numel
  bcast_S_S16x128x128 : S_.BroadcastsInDim S16x128x128 (![] : Fin 0 → Fin S16x128x128.rank)
  natLt_1_32 : 1 < 32
  reducesTo_S16x128x128_S_d0_1_2 : S16x128x128.ReducesTo [0, 1, 2] S_
  shapeCasts_S16x128x128_S262144 : S16x128x128.ShapeCasts S262144
  bcast_S_S_ : S_.BroadcastsInDim S_ (![] : Fin 0 → Fin S_.rank)
  reduceWindows_S262144_S262144_w262144s1p262143_0 : S262144.ReduceWindows (![262144] : Fin 1 → Nat) ![1] ![262143] ![0] S262144
  bcast_S_S262144 : S_.BroadcastsInDim S262144 (![] : Fin 0 → Fin S262144.rank)
  bcast_S262144_S262144x1_0 : S262144.BroadcastsInDim S262144x1 (![0] : Fin 1 → Fin S262144x1.rank)
  reducesTo_S262144_S_d0 : S262144.ReducesTo [0] S_
  concatenates_S262144x1_S262144x1_S262144x1_S262144x3_d1 : Shape.Concatenates [S262144x1, S262144x1, S262144x1] S262144x3 1
  scatter_S262144_S262144x1_S262144_n_0_0_1_wf : ScatterDims.WF S262144 S262144x1 S262144 [] [0] [0] 1

variable [Facts₀]

def scatter_S262144_S262144x1_S262144_n_0_0_1 : ScatterDims S262144 S262144x1 S262144 where
  updateWindowDims := []
  insertedWindowDims := [0]
  scatterDimsToOperandDims := [0]
  indexVectorDim := 1
  wf := scatter_S262144_S262144x1_S262144_n_0_0_1_wf

class Facts : Prop extends Facts₀ where

variable [Facts]
-- ==== Proof.KernelRun.lean ====
/-
  The pooling kernel's run, for any reading of the float type.

  The entry function reshapes the mask to [16, 2048, 2048], launches the pooling kernel over a 16 x 4 grid (one image, one
  strip of 512 rows per point) and continues with 174 host operations on the kernel's result. At a grid point the kernel
  loads its strip whole, takes the maximum over each 16 x 16 tile, compares it with one half and stores the 32 x 128
  block of zeros and ones whole; it also loads the block it is about to overwrite and does not use it. So after the body
  the output's staging buffer holds one function of the strip alone, whatever it held before, and the pipeline's
  bookkeeping is the standard one: the input strip is found at its block of the reshaped mask at every point, and the
  later host lines touch only buffers that bypass the region, never the mask, its reshaping, or the kernel's result.
  The run concludes that every weakly fair execution terminates, that the kernel's result array is what the written-back
  blocks make it, and that every other buffer is at the later lines' fold over the contents at the region's exit.
-/
import proofs.«147291_j70222715290212_2_alg».proof.Proof.Gen.Kernel.Launch
import proofs.«147291_j70222715290212_2_alg».proof.Proof.Gen.Kernel.Skeleton
import proofs.«147291_j70222715290212_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- The buffers' contents when the region is entered: the launch contents after the one reshaping line. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- The host lines after the region, stretch by stretch (the entry function's own lines and each helper call's). -/
abbrev sfx : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]

/-- All of them but the first stretch: the compaction of the flattened mask of active blocks. -/
abbrev sfxTail : List (List (HloOp τ sig (Elt F))) :=
  [hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]

theorem hostOps0_fresh : (hostOps0 : List (HloOp τ sig (Elt F))).Forall fun op => op.fresh = ∅ := by
  simp only [List.Forall]; repeat' constructor
theorem fresh_hostOps1 : (hostOps1 : List (HloOp τ sig (Elt F))).Forall fun op => op.fresh = ∅ := by
  simp only [List.Forall]; repeat' constructor
theorem fresh_hostOps1_1 : (hostOps1_1 : List (HloOp τ sig (Elt F))).Forall fun op => op.fresh = ∅ := by
  simp only [List.Forall]; repeat' constructor
theorem fresh_hostOps1_2 : (hostOps1_2 : List (HloOp τ sig (Elt F))).Forall fun op => op.fresh = ∅ := by
  simp only [List.Forall]; repeat' constructor
theorem fresh_hostOps1_3 : (hostOps1_3 : List (HloOp τ sig (Elt F))).Forall fun op => op.fresh = ∅ := by
  simp only [List.Forall]; repeat' constructor
theorem fresh_hostOps1_4 : (hostOps1_4 : List (HloOp τ sig (Elt F))).Forall fun op => op.fresh = ∅ := by
  simp only [List.Forall]; repeat' constructor
theorem fresh_hostOps1_5 : (hostOps1_5 : List (HloOp τ sig (Elt F))).Forall fun op => op.fresh = ∅ := by
  simp only [List.Forall]; repeat' constructor
theorem fresh_hostOps1_6 : (hostOps1_6 : List (HloOp τ sig (Elt F))).Forall fun op => op.fresh = ∅ := by
  simp only [List.Forall]; repeat' constructor
theorem fresh_hostOps1_7 : (hostOps1_7 : List (HloOp τ sig (Elt F))).Forall fun op => op.fresh = ∅ := by
  simp only [List.Forall]; repeat' constructor
theorem fresh_hostOps1_8 : (hostOps1_8 : List (HloOp τ sig (Elt F))).Forall fun op => op.fresh = ∅ := by
  simp only [List.Forall]; repeat' constructor
theorem fresh_hostOps1_9 : (hostOps1_9 : List (HloOp τ sig (Elt F))).Forall fun op => op.fresh = ∅ := by
  simp only [List.Forall]; repeat' constructor
theorem fresh_hostOps1_10 : (hostOps1_10 : List (HloOp τ sig (Elt F))).Forall fun op => op.fresh = ∅ := by
  simp only [List.Forall]; repeat' constructor
theorem fresh_hostOps1_11 : (hostOps1_11 : List (HloOp τ sig (Elt F))).Forall fun op => op.fresh = ∅ := by
  simp only [List.Forall]; repeat' constructor
theorem fresh_hostOps1_12 : (hostOps1_12 : List (HloOp τ sig (Elt F))).Forall fun op => op.fresh = ∅ := by
  simp only [List.Forall]; repeat' constructor
theorem fresh_hostOps1_13 : (hostOps1_13 : List (HloOp τ sig (Elt F))).Forall fun op => op.fresh = ∅ := by
  simp only [List.Forall]; repeat' constructor
theorem fresh_hostOps1_14 : (hostOps1_14 : List (HloOp τ sig (Elt F))).Forall fun op => op.fresh = ∅ := by
  simp only [List.Forall]; repeat' constructor
theorem fresh_hostOps1_15 : (hostOps1_15 : List (HloOp τ sig (Elt F))).Forall fun op => op.fresh = ∅ := by
  simp only [List.Forall]; repeat' constructor
theorem fresh_hostOps1_16 : (hostOps1_16 : List (HloOp τ sig (Elt F))).Forall fun op => op.fresh = ∅ := by
  simp only [List.Forall]; repeat' constructor
theorem fresh_hostOps1_17 : (hostOps1_17 : List (HloOp τ sig (Elt F))).Forall fun op => op.fresh = ∅ := by
  simp only [List.Forall]; repeat' constructor
theorem fresh_hostOps1_18 : (hostOps1_18 : List (HloOp τ sig (Elt F))).Forall fun op => op.fresh = ∅ := by
  simp only [List.Forall]; repeat' constructor
theorem fresh_hostOps1_19 : (hostOps1_19 : List (HloOp τ sig (Elt F))).Forall fun op => op.fresh = ∅ := by
  simp only [List.Forall]; repeat' constructor
theorem fresh_hostOps1_20 : (hostOps1_20 : List (HloOp τ sig (Elt F))).Forall fun op => op.fresh = ∅ := by
  simp only [List.Forall]; repeat' constructor
theorem fresh_hostOps1_21 : (hostOps1_21 : List (HloOp τ sig (Elt F))).Forall fun op => op.fresh = ∅ := by
  simp only [List.Forall]; repeat' constructor
theorem fresh_hostOps1_22 : (hostOps1_22 : List (HloOp τ sig (Elt F))).Forall fun op => op.fresh = ∅ := by
  simp only [List.Forall]; repeat' constructor
theorem fresh_hostOps1_23 : (hostOps1_23 : List (HloOp τ sig (Elt F))).Forall fun op => op.fresh = ∅ := by
  simp only [List.Forall]; repeat' constructor
theorem fresh_hostOps1_24 : (hostOps1_24 : List (HloOp τ sig (Elt F))).Forall fun op => op.fresh = ∅ := by
  simp only [List.Forall]; repeat' constructor

theorem sfx_tc : (sfx : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub⟩
theorem sfx_fresh_all : (sfx : List (List (HloOp τ sig (Elt F)))).Forall fun ops => ops.Forall fun op => op.fresh = ∅ :=
  ⟨fresh_hostOps1, fresh_hostOps1_1, fresh_hostOps1_2, fresh_hostOps1_3, fresh_hostOps1_4, fresh_hostOps1_5, fresh_hostOps1_6, fresh_hostOps1_7, fresh_hostOps1_8, fresh_hostOps1_9, fresh_hostOps1_10, fresh_hostOps1_11, fresh_hostOps1_12, fresh_hostOps1_13, fresh_hostOps1_14, fresh_hostOps1_15, fresh_hostOps1_16, fresh_hostOps1_17, fresh_hostOps1_18, fresh_hostOps1_19, fresh_hostOps1_20, fresh_hostOps1_21, fresh_hostOps1_22, fresh_hostOps1_23, fresh_hostOps1_24⟩

/-- The entry function reduces to the region continued by the later lines, at the contents after the reshaping. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (sfx.map StableHlo.seq)) :=
  Pipeline.hmain_around cfgs 0 defs₀ 𝒱₀ m main [hostOps0] sfx hostOps0_sub hostOps0_fresh main_chain

/-- The later lines touch unscoped TensorCore buffers only. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp sfx_tc) ops hops)) op hop)
/-- They allocate nothing. -/
theorem sfx_fresh : ∀ ops ∈ (sfx : List (List (HloOp τ sig (Elt F)))), ∀ op ∈ ops, op.fresh = ∅ := by
  intro ops hops op hop
  exact (List.forall_iff_forall_mem.mp ((List.forall_iff_forall_mem.mp sfx_fresh_all) ops hops)) op hop

/-! Each later line writes its own result buffer, which is neither the mask, nor its reshaping, nor the kernel's result;
    and no line of the compaction writes the count of active blocks. -/
theorem keeps_hostOps1 : (hostOps1 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_1 : (hostOps1_1 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_2 : (hostOps1_2 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_3 : (hostOps1_3 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_4 : (hostOps1_4 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_5 : (hostOps1_5 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_6 : (hostOps1_6 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_7 : (hostOps1_7 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_8 : (hostOps1_8 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_9 : (hostOps1_9 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_10 : (hostOps1_10 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_11 : (hostOps1_11 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_12 : (hostOps1_12 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_13 : (hostOps1_13 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_14 : (hostOps1_14 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_15 : (hostOps1_15 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_16 : (hostOps1_16 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_17 : (hostOps1_17 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_18 : (hostOps1_18 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_19 : (hostOps1_19 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_20 : (hostOps1_20 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_21 : (hostOps1_21 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_22 : (hostOps1_22 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_23 : (hostOps1_23 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_24 : (hostOps1_24 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_1 : (hostOps1_1 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_2 : (hostOps1_2 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_3 : (hostOps1_3 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_4 : (hostOps1_4 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_5 : (hostOps1_5 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_6 : (hostOps1_6 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_7 : (hostOps1_7 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_8 : (hostOps1_8 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_9 : (hostOps1_9 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_10 : (hostOps1_10 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_11 : (hostOps1_11 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_12 : (hostOps1_12 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_13 : (hostOps1_13 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_14 : (hostOps1_14 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_15 : (hostOps1_15 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_16 : (hostOps1_16 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_17 : (hostOps1_17 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_18 : (hostOps1_18 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_19 : (hostOps1_19 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_20 : (hostOps1_20 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_21 : (hostOps1_21 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_22 : (hostOps1_22 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_23 : (hostOps1_23 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_24 : (hostOps1_24 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))

theorem sfx_keeps_all : (sfx : List (List (HloOp τ sig (Elt F)))).Forall fun ops => ops.Forall fun op =>
    ∀ r ∈ ([main_arg0, main_v0, main_v1] : List (Ref sig .tc)), Proc.devRef (τ := τ) .tc r ∉ op.writes :=
  ⟨keeps_hostOps1, keeps_hostOps1_1, keeps_hostOps1_2, keeps_hostOps1_3, keeps_hostOps1_4, keeps_hostOps1_5, keeps_hostOps1_6, keeps_hostOps1_7, keeps_hostOps1_8, keeps_hostOps1_9, keeps_hostOps1_10, keeps_hostOps1_11, keeps_hostOps1_12, keeps_hostOps1_13, keeps_hostOps1_14, keeps_hostOps1_15, keeps_hostOps1_16, keeps_hostOps1_17, keeps_hostOps1_18, keeps_hostOps1_19, keeps_hostOps1_20, keeps_hostOps1_21, keeps_hostOps1_22, keeps_hostOps1_23, keeps_hostOps1_24⟩
theorem sfxTail_keeps_count : (sfxTail : List (List (HloOp τ sig (Elt F)))).Forall fun ops => ops.Forall fun op =>
    ∀ r ∈ ([main_v4] : List (Ref sig .tc)), Proc.devRef (τ := τ) .tc r ∉ op.writes :=
  ⟨keepsCount_hostOps1_1, keepsCount_hostOps1_2, keepsCount_hostOps1_3, keepsCount_hostOps1_4, keepsCount_hostOps1_5, keepsCount_hostOps1_6, keepsCount_hostOps1_7, keepsCount_hostOps1_8, keepsCount_hostOps1_9, keepsCount_hostOps1_10, keepsCount_hostOps1_11, keepsCount_hostOps1_12, keepsCount_hostOps1_13, keepsCount_hostOps1_14, keepsCount_hostOps1_15, keepsCount_hostOps1_16, keepsCount_hostOps1_17, keepsCount_hostOps1_18, keepsCount_hostOps1_19, keepsCount_hostOps1_20, keepsCount_hostOps1_21, keepsCount_hostOps1_22, keepsCount_hostOps1_23, keepsCount_hostOps1_24⟩

/-- No later line writes the mask, its reshaping or the kernel's result. -/
theorem sfx_keeps_ref (r : Ref sig .tc) (hr : r ∈ ([main_arg0, main_v0, main_v1] : List (Ref sig .tc))) :
    ∀ op ∈ (sfx : List (List (HloOp τ sig (Elt F)))).flatten, Proc.devRef (τ := τ) .tc r ∉ op.writes := by
  intro op hop
  obtain ⟨ops, hops, hop'⟩ := List.mem_flatten.mp hop
  exact (List.forall_iff_forall_mem.mp ((List.forall_iff_forall_mem.mp sfx_keeps_all) ops hops)) op hop' r hr

/-- No line of the compaction writes the count of active blocks. -/
theorem sfxTail_keeps_v4 : ∀ op ∈ (sfxTail : List (List (HloOp τ sig (Elt F)))).flatten, Proc.devRef (τ := τ) .tc main_v4 ∉ op.writes := by
  intro op hop
  obtain ⟨ops, hops, hop'⟩ := List.mem_flatten.mp hop
  exact (List.forall_iff_forall_mem.mp ((List.forall_iff_forall_mem.mp sfxTail_keeps_count) ops hops)) op hop' main_v4 (List.mem_singleton.mpr rfl)

/-- In the form the launch theorem asks: no later line writes an array the pipeline stages. -/
theorem sfx_keeps : ∀ ops ∈ (sfx : List (List (HloOp τ sig (Elt F)))), ∀ op ∈ ops,
    ∀ w, Proc.devRef .tc (Pipeline.arrRef spec0 w) ∉ op.writes := by
  intro ops hops op hop w
  have h := (List.forall_iff_forall_mem.mp ((List.forall_iff_forall_mem.mp sfx_keeps_all) ops hops)) op hop
  fin_cases w
  · exact h main_v0 (by simp only [List.mem_cons, List.mem_nil_iff, or_false, true_or, or_true])
  · exact h main_v1 (by simp only [List.mem_cons, List.mem_nil_iff, or_false, true_or, or_true])

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input's current staging buffer holds its block at every point, for any proof data whose array is the
    region-entry contents and whose body leaves the block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's staging buffer -/

/-- The strip, loaded whole. -/
abbrev rIn : Rect S1x512x2048 := Rect.unit (s := S1x512x2048) ![0, 0, 0] S1x512x2048.size inb_S1x512x2048_S1x512x2048_0_0_0
/-- The block of active flags, stored whole. -/
abbrev rOut : Rect S1x32x128 := Rect.unit (s := S1x32x128) ![0, 0, 0] S1x32x128.size inb_S1x32x128_S1x32x128_0_0_0

/-- The output's staging buffer after the body: its one whole store of the flags computed from the loaded strip. -/
def outBlock (x0 : Vec F S1x512x2048 .f32) : Vec F S1x32x128 .i32 :=
  View.canon [⟨rOut, k0_pay1 (View.ld x0 rIn)⟩]

/-- The one store covers the buffer. -/
theorem outCover (p0 : Vec F S1x32x128 .i32) (y : S1x32x128.Idx) :
    ∃ pc ∈ ([⟨rOut, p0⟩] : List (View.Piece (Elt F) S1x32x128 .i32)), y ∈ pc.1.set :=
  View.cover_of_tiled [⟨rOut, p0⟩] S1x32x128.size (by rfl) y

/-! ## The body's triple -/

set_option maxHeartbeats 1000000 in
/-- The body on whole staging buffers, the input's at contents `x0` and the output's at anything, runs to the
    continuation holding the input's as it was and the output's at `outBlock x0`. -/
theorem sound_kernel (c : Dev nD) (E : Set ℕ) (i : grid0.Coords) (arg2 : Memref sig .tc .vmem S1x512x2048 .f32) (harg2 : arg2.IsWhole)
    (arg3 : Memref sig .tc .vmem S1x32x128 .i32) (harg3 : arg3.IsWhole)
    (x0 : Vec F S1x512x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outBlock x0)) -∗ K ⟨⟩))
      ⊢ wp frame (wpE (defs₀ (F := F)) Variants.none c none) E (cc0__pool_kernel i arg2 harg2 arg3 harg3) K := by
  simp only [cc0__pool_kernel_eq_skeleton]; unfold cc0__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (outCover _)

/-! ## The pipeline's proof data -/

/-- The arrays as the region finds them; after the body at point `t` the input's buffer at its block and the
    output's at `outBlock` of that block; the invariant the standard one; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by dsimp only [dats]

theorem before_in (c : Dev nD) (t : Fin cfg0.N) (d) : (dats m 0 c).before 0 t d = iblk m c 0 t :=
  before_in_of m (dats m 0 c) (A_eq m c 0) (after_in m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ _ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the entry function terminates; the kernel's result
    array ends at what the written-back blocks make it, and every other unscoped buffer at the later lines' fold over
    the contents at the region's exit. -/
theorem run_main : θ_run defs (onTc (τ := τ) (main (F := F))) (s₀ m ρ)
    (Pipeline.FramePost cfgs (dats m) 0 (Pipeline.afterTail₀ cfgs (dats m) 0 (V0 m) sfx)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hΦ := fun _ _ => rfl)

/-- The mask is no array the pipeline stages and no later line writes it: it ends as launched. -/
theorem kept_arg0 (c : Dev nD) :
    Pipeline.afterTail₀ cfgs (dats m) 0 (V0 m) sfx c main_arg0 = m ((c : Thread nD τ).loc main_arg0) := by
  unfold Pipeline.afterTail₀
  rw [StableHlo.after_of_forall_not_mem _ _ (sfx_keeps_ref main_arg0 (by simp only [List.mem_cons, true_or])),
    Pipeline.withArrays_of_ne _ c (V0 m c) _ main_arg0 (fun w => by fin_cases w <;> decide)]
  show StableHlo.after hostOps0 (fun b => m (c, b)) (Proc.devRef .tc main_arg0) = _
  after_results

/-- The frame: the run terminates and the mask ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (kept_arg0 m c))
    (run_main m ρ)

end Cert.Kernel.Pool

end
-- ==== Proof.KernelIdealRun.lean ====
/-
  The pooling kernel's run, for any reading of the float type.

  The entry function reshapes the mask to [16, 2048, 2048], launches the pooling kernel over a 16 x 4 grid (one image, one
  strip of 512 rows per point) and continues with 174 host operations on the kernel's result. At a grid point the kernel
  loads its strip whole, takes the maximum over each 16 x 16 tile, compares it with one half and stores the 32 x 128
  block of zeros and ones whole; it also loads the block it is about to overwrite and does not use it. So after the body
  the output's staging buffer holds one function of the strip alone, whatever it held before, and the pipeline's
  bookkeeping is the standard one: the input strip is found at its block of the reshaped mask at every point, and the
  later host lines touch only buffers that bypass the region, never the mask, its reshaping, or the kernel's result.
  The run concludes that every weakly fair execution terminates, that the kernel's result array is what the written-back
  blocks make it, and that every other buffer is at the later lines' fold over the contents at the region's exit.
-/
import proofs.«147291_j70222715290212_2_alg».proof.Proof.Gen.KernelIdeal.Launch
import proofs.«147291_j70222715290212_2_alg».proof.Proof.Gen.KernelIdeal.Skeleton
import proofs.«147291_j70222715290212_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- The buffers' contents when the region is entered: the launch contents after the one reshaping line. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- The host lines after the region, stretch by stretch (the entry function's own lines and each helper call's). -/
abbrev sfx : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]

/-- All of them but the first stretch: the compaction of the flattened mask of active blocks. -/
abbrev sfxTail : List (List (HloOp τ sig (Elt F))) :=
  [hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]

theorem hostOps0_fresh : (hostOps0 : List (HloOp τ sig (Elt F))).Forall fun op => op.fresh = ∅ := by
  simp only [List.Forall]; repeat' constructor
theorem fresh_hostOps1 : (hostOps1 : List (HloOp τ sig (Elt F))).Forall fun op => op.fresh = ∅ := by
  simp only [List.Forall]; repeat' constructor
theorem fresh_hostOps1_1 : (hostOps1_1 : List (HloOp τ sig (Elt F))).Forall fun op => op.fresh = ∅ := by
  simp only [List.Forall]; repeat' constructor
theorem fresh_hostOps1_2 : (hostOps1_2 : List (HloOp τ sig (Elt F))).Forall fun op => op.fresh = ∅ := by
  simp only [List.Forall]; repeat' constructor
theorem fresh_hostOps1_3 : (hostOps1_3 : List (HloOp τ sig (Elt F))).Forall fun op => op.fresh = ∅ := by
  simp only [List.Forall]; repeat' constructor
theorem fresh_hostOps1_4 : (hostOps1_4 : List (HloOp τ sig (Elt F))).Forall fun op => op.fresh = ∅ := by
  simp only [List.Forall]; repeat' constructor
theorem fresh_hostOps1_5 : (hostOps1_5 : List (HloOp τ sig (Elt F))).Forall fun op => op.fresh = ∅ := by
  simp only [List.Forall]; repeat' constructor
theorem fresh_hostOps1_6 : (hostOps1_6 : List (HloOp τ sig (Elt F))).Forall fun op => op.fresh = ∅ := by
  simp only [List.Forall]; repeat' constructor
theorem fresh_hostOps1_7 : (hostOps1_7 : List (HloOp τ sig (Elt F))).Forall fun op => op.fresh = ∅ := by
  simp only [List.Forall]; repeat' constructor
theorem fresh_hostOps1_8 : (hostOps1_8 : List (HloOp τ sig (Elt F))).Forall fun op => op.fresh = ∅ := by
  simp only [List.Forall]; repeat' constructor
theorem fresh_hostOps1_9 : (hostOps1_9 : List (HloOp τ sig (Elt F))).Forall fun op => op.fresh = ∅ := by
  simp only [List.Forall]; repeat' constructor
theorem fresh_hostOps1_10 : (hostOps1_10 : List (HloOp τ sig (Elt F))).Forall fun op => op.fresh = ∅ := by
  simp only [List.Forall]; repeat' constructor
theorem fresh_hostOps1_11 : (hostOps1_11 : List (HloOp τ sig (Elt F))).Forall fun op => op.fresh = ∅ := by
  simp only [List.Forall]; repeat' constructor
theorem fresh_hostOps1_12 : (hostOps1_12 : List (HloOp τ sig (Elt F))).Forall fun op => op.fresh = ∅ := by
  simp only [List.Forall]; repeat' constructor
theorem fresh_hostOps1_13 : (hostOps1_13 : List (HloOp τ sig (Elt F))).Forall fun op => op.fresh = ∅ := by
  simp only [List.Forall]; repeat' constructor
theorem fresh_hostOps1_14 : (hostOps1_14 : List (HloOp τ sig (Elt F))).Forall fun op => op.fresh = ∅ := by
  simp only [List.Forall]; repeat' constructor
theorem fresh_hostOps1_15 : (hostOps1_15 : List (HloOp τ sig (Elt F))).Forall fun op => op.fresh = ∅ := by
  simp only [List.Forall]; repeat' constructor
theorem fresh_hostOps1_16 : (hostOps1_16 : List (HloOp τ sig (Elt F))).Forall fun op => op.fresh = ∅ := by
  simp only [List.Forall]; repeat' constructor
theorem fresh_hostOps1_17 : (hostOps1_17 : List (HloOp τ sig (Elt F))).Forall fun op => op.fresh = ∅ := by
  simp only [List.Forall]; repeat' constructor
theorem fresh_hostOps1_18 : (hostOps1_18 : List (HloOp τ sig (Elt F))).Forall fun op => op.fresh = ∅ := by
  simp only [List.Forall]; repeat' constructor
theorem fresh_hostOps1_19 : (hostOps1_19 : List (HloOp τ sig (Elt F))).Forall fun op => op.fresh = ∅ := by
  simp only [List.Forall]; repeat' constructor
theorem fresh_hostOps1_20 : (hostOps1_20 : List (HloOp τ sig (Elt F))).Forall fun op => op.fresh = ∅ := by
  simp only [List.Forall]; repeat' constructor
theorem fresh_hostOps1_21 : (hostOps1_21 : List (HloOp τ sig (Elt F))).Forall fun op => op.fresh = ∅ := by
  simp only [List.Forall]; repeat' constructor
theorem fresh_hostOps1_22 : (hostOps1_22 : List (HloOp τ sig (Elt F))).Forall fun op => op.fresh = ∅ := by
  simp only [List.Forall]; repeat' constructor
theorem fresh_hostOps1_23 : (hostOps1_23 : List (HloOp τ sig (Elt F))).Forall fun op => op.fresh = ∅ := by
  simp only [List.Forall]; repeat' constructor
theorem fresh_hostOps1_24 : (hostOps1_24 : List (HloOp τ sig (Elt F))).Forall fun op => op.fresh = ∅ := by
  simp only [List.Forall]; repeat' constructor

theorem sfx_tc : (sfx : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub⟩
theorem sfx_fresh_all : (sfx : List (List (HloOp τ sig (Elt F)))).Forall fun ops => ops.Forall fun op => op.fresh = ∅ :=
  ⟨fresh_hostOps1, fresh_hostOps1_1, fresh_hostOps1_2, fresh_hostOps1_3, fresh_hostOps1_4, fresh_hostOps1_5, fresh_hostOps1_6, fresh_hostOps1_7, fresh_hostOps1_8, fresh_hostOps1_9, fresh_hostOps1_10, fresh_hostOps1_11, fresh_hostOps1_12, fresh_hostOps1_13, fresh_hostOps1_14, fresh_hostOps1_15, fresh_hostOps1_16, fresh_hostOps1_17, fresh_hostOps1_18, fresh_hostOps1_19, fresh_hostOps1_20, fresh_hostOps1_21, fresh_hostOps1_22, fresh_hostOps1_23, fresh_hostOps1_24⟩

/-- The entry function reduces to the region continued by the later lines, at the contents after the reshaping. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (sfx.map StableHlo.seq)) :=
  Pipeline.hmain_around cfgs 0 defs₀ 𝒱₀ m main [hostOps0] sfx hostOps0_sub hostOps0_fresh main_chain

/-- The later lines touch unscoped TensorCore buffers only. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp sfx_tc) ops hops)) op hop)
/-- They allocate nothing. -/
theorem sfx_fresh : ∀ ops ∈ (sfx : List (List (HloOp τ sig (Elt F)))), ∀ op ∈ ops, op.fresh = ∅ := by
  intro ops hops op hop
  exact (List.forall_iff_forall_mem.mp ((List.forall_iff_forall_mem.mp sfx_fresh_all) ops hops)) op hop

/-! Each later line writes its own result buffer, which is neither the mask, nor its reshaping, nor the kernel's result;
    and no line of the compaction writes the count of active blocks. -/
theorem keeps_hostOps1 : (hostOps1 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_1 : (hostOps1_1 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_2 : (hostOps1_2 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_3 : (hostOps1_3 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_4 : (hostOps1_4 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_5 : (hostOps1_5 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_6 : (hostOps1_6 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_7 : (hostOps1_7 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_8 : (hostOps1_8 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_9 : (hostOps1_9 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_10 : (hostOps1_10 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_11 : (hostOps1_11 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_12 : (hostOps1_12 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_13 : (hostOps1_13 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_14 : (hostOps1_14 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_15 : (hostOps1_15 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_16 : (hostOps1_16 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_17 : (hostOps1_17 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_18 : (hostOps1_18 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_19 : (hostOps1_19 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_20 : (hostOps1_20 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_21 : (hostOps1_21 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_22 : (hostOps1_22 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_23 : (hostOps1_23 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keeps_hostOps1_24 : (hostOps1_24 : List (HloOp τ sig (Elt F))).Forall fun op => ∀ r ∈ ([main_arg0, main_v0, main_v1] : List (Ref sig .tc)), Proc.devRef (τ := τ) .tc r ∉ op.writes := by
  simp only [List.Forall]
  repeat' constructor
  all_goals (intro r hr; simp only [List.mem_cons, List.mem_nil_iff, or_false] at hr; rcases hr with rfl | rfl | rfl <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_1 : (hostOps1_1 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_2 : (hostOps1_2 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_3 : (hostOps1_3 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_4 : (hostOps1_4 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_5 : (hostOps1_5 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_6 : (hostOps1_6 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_7 : (hostOps1_7 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_8 : (hostOps1_8 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_9 : (hostOps1_9 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_10 : (hostOps1_10 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_11 : (hostOps1_11 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_12 : (hostOps1_12 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_13 : (hostOps1_13 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_14 : (hostOps1_14 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_15 : (hostOps1_15 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_16 : (hostOps1_16 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_17 : (hostOps1_17 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_18 : (hostOps1_18 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_19 : (hostOps1_19 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_20 : (hostOps1_20 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_21 : (hostOps1_21 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_22 : (hostOps1_22 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_23 : (hostOps1_23 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))
theorem keepsCount_hostOps1_24 : (hostOps1_24 : List (HloOp τ sig (Elt F))).Forall fun op => ∀ r ∈ ([main_v4] : List (Ref sig .tc)), Proc.devRef (τ := τ) .tc r ∉ op.writes := by
  simp only [List.Forall]
  repeat' constructor
  all_goals (intro r hr; simp only [List.mem_cons, List.mem_nil_iff, or_false, List.mem_singleton] at hr; subst hr <;> simp only [StableHlo.nullary_writes, StableHlo.unary_writes, StableHlo.binary_writes, StableHlo.ternary_writes, StableHlo.reshape_writes, StableHlo.nary_writes, Finset.mem_singleton] <;> exact StableHlo.devRef_ne_of_ne (by decide))

theorem sfx_keeps_all : (sfx : List (List (HloOp τ sig (Elt F)))).Forall fun ops => ops.Forall fun op =>
    ∀ r ∈ ([main_arg0, main_v0, main_v1] : List (Ref sig .tc)), Proc.devRef (τ := τ) .tc r ∉ op.writes :=
  ⟨keeps_hostOps1, keeps_hostOps1_1, keeps_hostOps1_2, keeps_hostOps1_3, keeps_hostOps1_4, keeps_hostOps1_5, keeps_hostOps1_6, keeps_hostOps1_7, keeps_hostOps1_8, keeps_hostOps1_9, keeps_hostOps1_10, keeps_hostOps1_11, keeps_hostOps1_12, keeps_hostOps1_13, keeps_hostOps1_14, keeps_hostOps1_15, keeps_hostOps1_16, keeps_hostOps1_17, keeps_hostOps1_18, keeps_hostOps1_19, keeps_hostOps1_20, keeps_hostOps1_21, keeps_hostOps1_22, keeps_hostOps1_23, keeps_hostOps1_24⟩
theorem sfxTail_keeps_count : (sfxTail : List (List (HloOp τ sig (Elt F)))).Forall fun ops => ops.Forall fun op =>
    ∀ r ∈ ([main_v4] : List (Ref sig .tc)), Proc.devRef (τ := τ) .tc r ∉ op.writes :=
  ⟨keepsCount_hostOps1_1, keepsCount_hostOps1_2, keepsCount_hostOps1_3, keepsCount_hostOps1_4, keepsCount_hostOps1_5, keepsCount_hostOps1_6, keepsCount_hostOps1_7, keepsCount_hostOps1_8, keepsCount_hostOps1_9, keepsCount_hostOps1_10, keepsCount_hostOps1_11, keepsCount_hostOps1_12, keepsCount_hostOps1_13, keepsCount_hostOps1_14, keepsCount_hostOps1_15, keepsCount_hostOps1_16, keepsCount_hostOps1_17, keepsCount_hostOps1_18, keepsCount_hostOps1_19, keepsCount_hostOps1_20, keepsCount_hostOps1_21, keepsCount_hostOps1_22, keepsCount_hostOps1_23, keepsCount_hostOps1_24⟩

/-- No later line writes the mask, its reshaping or the kernel's result. -/
theorem sfx_keeps_ref (r : Ref sig .tc) (hr : r ∈ ([main_arg0, main_v0, main_v1] : List (Ref sig .tc))) :
    ∀ op ∈ (sfx : List (List (HloOp τ sig (Elt F)))).flatten, Proc.devRef (τ := τ) .tc r ∉ op.writes := by
  intro op hop
  obtain ⟨ops, hops, hop'⟩ := List.mem_flatten.mp hop
  exact (List.forall_iff_forall_mem.mp ((List.forall_iff_forall_mem.mp sfx_keeps_all) ops hops)) op hop' r hr

/-- No line of the compaction writes the count of active blocks. -/
theorem sfxTail_keeps_v4 : ∀ op ∈ (sfxTail : List (List (HloOp τ sig (Elt F)))).flatten, Proc.devRef (τ := τ) .tc main_v4 ∉ op.writes := by
  intro op hop
  obtain ⟨ops, hops, hop'⟩ := List.mem_flatten.mp hop
  exact (List.forall_iff_forall_mem.mp ((List.forall_iff_forall_mem.mp sfxTail_keeps_count) ops hops)) op hop' main_v4 (List.mem_singleton.mpr rfl)

/-- In the form the launch theorem asks: no later line writes an array the pipeline stages. -/
theorem sfx_keeps : ∀ ops ∈ (sfx : List (List (HloOp τ sig (Elt F)))), ∀ op ∈ ops,
    ∀ w, Proc.devRef .tc (Pipeline.arrRef spec0 w) ∉ op.writes := by
  intro ops hops op hop w
  have h := (List.forall_iff_forall_mem.mp ((List.forall_iff_forall_mem.mp sfx_keeps_all) ops hops)) op hop
  fin_cases w
  · exact h main_v0 (by simp only [List.mem_cons, List.mem_nil_iff, or_false, true_or, or_true])
  · exact h main_v1 (by simp only [List.mem_cons, List.mem_nil_iff, or_false, true_or, or_true])

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input's current staging buffer holds its block at every point, for any proof data whose array is the
    region-entry contents and whose body leaves the block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's staging buffer -/

/-- The strip, loaded whole. -/
abbrev rIn : Rect S1x512x2048 := Rect.unit (s := S1x512x2048) ![0, 0, 0] S1x512x2048.size inb_S1x512x2048_S1x512x2048_0_0_0
/-- The block of active flags, stored whole. -/
abbrev rOut : Rect S1x32x128 := Rect.unit (s := S1x32x128) ![0, 0, 0] S1x32x128.size inb_S1x32x128_S1x32x128_0_0_0

/-- The output's staging buffer after the body: its one whole store of the flags computed from the loaded strip. -/
def outBlock (x0 : Vec F S1x512x2048 .f32) : Vec F S1x32x128 .i32 :=
  View.canon [⟨rOut, k0_pay1 (View.ld x0 rIn)⟩]

/-- The one store covers the buffer. -/
theorem outCover (p0 : Vec F S1x32x128 .i32) (y : S1x32x128.Idx) :
    ∃ pc ∈ ([⟨rOut, p0⟩] : List (View.Piece (Elt F) S1x32x128 .i32)), y ∈ pc.1.set :=
  View.cover_of_tiled [⟨rOut, p0⟩] S1x32x128.size (by rfl) y

/-! ## The body's triple -/

set_option maxHeartbeats 1000000 in
/-- The body on whole staging buffers, the input's at contents `x0` and the output's at anything, runs to the
    continuation holding the input's as it was and the output's at `outBlock x0`. -/
theorem sound_kernel (c : Dev nD) (E : Set ℕ) (i : grid0.Coords) (arg2 : Memref sig .tc .vmem S1x512x2048 .f32) (harg2 : arg2.IsWhole)
    (arg3 : Memref sig .tc .vmem S1x32x128 .i32) (harg3 : arg3.IsWhole)
    (x0 : Vec F S1x512x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outBlock x0)) -∗ K ⟨⟩))
      ⊢ wp frame (wpE (defs₀ (F := F)) Variants.none c none) E (cc0__pool_kernel i arg2 harg2 arg3 harg3) K := by
  simp only [cc0__pool_kernel_eq_skeleton]; unfold cc0__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (outCover _)

/-! ## The pipeline's proof data -/

/-- The arrays as the region finds them; after the body at point `t` the input's buffer at its block and the
    output's at `outBlock` of that block; the invariant the standard one; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by dsimp only [dats]

theorem before_in (c : Dev nD) (t : Fin cfg0.N) (d) : (dats m 0 c).before 0 t d = iblk m c 0 t :=
  before_in_of m (dats m 0 c) (A_eq m c 0) (after_in m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ _ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the entry function terminates; the kernel's result
    array ends at what the written-back blocks make it, and every other unscoped buffer at the later lines' fold over
    the contents at the region's exit. -/
theorem run_main : θ_run defs (onTc (τ := τ) (main (F := F))) (s₀ m ρ)
    (Pipeline.FramePost cfgs (dats m) 0 (Pipeline.afterTail₀ cfgs (dats m) 0 (V0 m) sfx)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hΦ := fun _ _ => rfl)

/-- The mask is no array the pipeline stages and no later line writes it: it ends as launched. -/
theorem kept_arg0 (c : Dev nD) :
    Pipeline.afterTail₀ cfgs (dats m) 0 (V0 m) sfx c main_arg0 = m ((c : Thread nD τ).loc main_arg0) := by
  unfold Pipeline.afterTail₀
  rw [StableHlo.after_of_forall_not_mem _ _ (sfx_keeps_ref main_arg0 (by simp only [List.mem_cons, true_or])),
    Pipeline.withArrays_of_ne _ c (V0 m c) _ main_arg0 (fun w => by fin_cases w <;> decide)]
  show StableHlo.after hostOps0 (fun b => m (c, b)) (Proc.devRef .tc main_arg0) = _
  after_results

/-- The frame: the run terminates and the mask ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (kept_arg0 m c))
    (run_main m ρ)

end Cert.KernelIdeal.Pool

end
-- ==== Proof.RefRun.lean ====
/-
  The reference program as one straight line of host operations, and its run.

  The reference has no kernel: its entry function is a sequence of tensor operations, some of them inside helper
  functions (a running sum, a clamp, floor division, remainder, selection) that are called with the buffers of one
  call. Substituting each call's buffers for the helper's parameters gives one list of 179 operations. The list is cut
  in three: the HEAD (the 16x16 block maximum of the mask, its comparison with one half, the count of the blocks above
  it, and the flattened comparison), the MIDDLE (the compaction of the flattened comparison into block positions and
  their three coordinates) and the LAST four (the three coordinate columns side by side). Every weakly fair execution
  of the program terminates, and each buffer ends at the fold of the operations over the launch contents.
-/
import proofs.«147291_j70222715290212_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The head: block maximum, comparison with one half, count, flattening. -/
abbrev opsHead : List (HloOp τ sig (Elt F)) :=
  [ StableHlo.reshape main_arg0 main_v0 rfl shapeCasts_S16x2048x2048x1_S16x2048x2048,
    StableHlo.reshape main_v0 main_v1 rfl shapeCasts_S16x2048x2048_S16x128x16x128x16,
    StableHlo.nullary main_cst (constant S_ .f32 0xFF800000#32),
    StableHlo.binary main_v1 main_cst main_v2 ((fun x v => Host.reduce FloatOps.maximumf x v reducesTo_S16x128x16x128x16_S16x128x128_d2_4 h_S_) : (⟨S16x128x16x128x16, .f32⟩ : BufTy).Contents (Elt F) → (⟨S_, .f32⟩ : BufTy).Contents (Elt F) → (⟨S16x128x128, .f32⟩ : BufTy).Contents (Elt F)),
    StableHlo.nullary main_cst_0 (constant S_ .f32 0x3F000000#32),
    StableHlo.unary main_cst_0 main_v3 (broadcastInDim S16x128x128 ![] bcast_S_S16x128x128 : (⟨S_, .f32⟩ : BufTy).Contents (Elt F) → (⟨S16x128x128, .f32⟩ : BufTy).Contents (Elt F)),
    StableHlo.binary main_v2 main_v3 main_v4 (cmpf .ogt : (⟨S16x128x128, .f32⟩ : BufTy).Contents (Elt F) → (⟨S16x128x128, .f32⟩ : BufTy).Contents (Elt F) → (⟨S16x128x128, .i1⟩ : BufTy).Contents (Elt F)),
    StableHlo.unary main_v4 main_v5 ((extui 32 · natLt_1_32) : (⟨S16x128x128, .i1⟩ : BufTy).Contents (Elt F) → (⟨S16x128x128, .i32⟩ : BufTy).Contents (Elt F)),
    StableHlo.nullary main_c (constantI S_ 32 0#32),
    StableHlo.binary main_v5 main_c main_v6 ((fun x v => Host.reduce IntOp.addi x v reducesTo_S16x128x128_S_d0_1_2 h_S_) : (⟨S16x128x128, .i32⟩ : BufTy).Contents (Elt F) → (⟨S_, .i32⟩ : BufTy).Contents (Elt F) → (⟨S_, .i32⟩ : BufTy).Contents (Elt F)),
    StableHlo.reshape main_v4 main_v7 rfl shapeCasts_S16x128x128_S262144 ]

/-- The middle: from the flattened comparison to the three coordinate vectors. -/
abbrev opsMid : List (HloOp τ sig (Elt F)) :=
  [ StableHlo.TRef.unary (.of main_v7 : StableHlo.TRef sig ⟨S262144, .i1⟩) main_call0.v0 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v0 main_call0.call0.v0 main_call0.call0.v1 (fun x v => Host.reduceWindow IntOp.addi ![262144] ![1] ![262143] ![0] x v reduceWindows_S262144_S262144_w262144s1p262143_0 h_S_),
    StableHlo.nullary main_c_1 (constantI S_ 32 0#32),
    StableHlo.unary main_c_1 main_v9 (broadcastInDim S262144 ![] bcast_S_S262144 : (⟨S_, .i32⟩ : BufTy).Contents (Elt F) → (⟨S262144, .i32⟩ : BufTy).Contents (Elt F)),
    StableHlo.nullary main_c_2 (constantI S_ 32 0#32),
    StableHlo.TRef.unary (.of main_c_2 : StableHlo.TRef sig ⟨S_, .i32⟩) main_call1.v0 id,
    StableHlo.TRef.unary main_call1.v0 main_call1.v1 (broadcastInDim S262144 ![] bcast_S_S262144),
    StableHlo.TRef.binary main_call1.v1 (.of main_v8 : StableHlo.TRef sig ⟨S262144, .i32⟩) main_call1.v2 maxsi,
    StableHlo.nullary main_c_3 (constantI S_ 32 0#32),
    StableHlo.unary main_c_3 main_v11 (broadcastInDim S262144 ![] bcast_S_S262144 : (⟨S_, .i32⟩ : BufTy).Contents (Elt F) → (⟨S262144, .i32⟩ : BufTy).Contents (Elt F)),
    StableHlo.binary main_v10 main_v11 main_v12 (cmpi .slt : (⟨S262144, .i32⟩ : BufTy).Contents (Elt F) → (⟨S262144, .i32⟩ : BufTy).Contents (Elt F) → (⟨S262144, .i1⟩ : BufTy).Contents (Elt F)),
    StableHlo.nullary main_c_4 (constantI S_ 32 262144#32),
    StableHlo.unary main_c_4 main_v13 (broadcastInDim S262144 ![] bcast_S_S262144 : (⟨S_, .i32⟩ : BufTy).Contents (Elt F) → (⟨S262144, .i32⟩ : BufTy).Contents (Elt F)),
    StableHlo.binary main_v10 main_v13 main_v14 (addi : (⟨S262144, .i32⟩ : BufTy).Contents (Elt F) → (⟨S262144, .i32⟩ : BufTy).Contents (Elt F) → (⟨S262144, .i32⟩ : BufTy).Contents (Elt F)),
    StableHlo.ternary main_v12 main_v14 main_v10 main_v15 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v15 main_v16 (broadcastInDim S262144x1 ![0] bcast_S262144_S262144x1_0 : (⟨S262144, .i32⟩ : BufTy).Contents (Elt F) → (⟨S262144x1, .i32⟩ : BufTy).Contents (Elt F)),
    StableHlo.nullary main_c_5 (constantI S_ 32 1#32),
    StableHlo.unary main_c_5 main_v17 (broadcastInDim S262144 ![] bcast_S_S262144 : (⟨S_, .i32⟩ : BufTy).Contents (Elt F) → (⟨S262144, .i32⟩ : BufTy).Contents (Elt F)),
    StableHlo.ternary main_v9 main_v16 main_v17 main_v18 ((fun x i u => Host.scatter scatter_S262144_S262144x1_S262144_n_0_0_1 IntOp.addi x i u) : (⟨S262144, .i32⟩ : BufTy).Contents (Elt F) → (⟨S262144x1, .i32⟩ : BufTy).Contents (Elt F) → (⟨S262144, .i32⟩ : BufTy).Contents (Elt F) → (⟨S262144, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v18 : StableHlo.TRef sig ⟨S262144, .i32⟩) main_call2.call0.v0 main_call2.call0.v1 (fun x v => Host.reduceWindow IntOp.addi ![262144] ![1] ![262143] ![0] x v reduceWindows_S262144_S262144_w262144s1p262143_0 h_S_),
    StableHlo.nullary main_c_6 (constantI S_ 32 1#32),
    StableHlo.TRef.unary (.of main_c_6 : StableHlo.TRef sig ⟨S_, .i32⟩) main_call3.v0 (broadcastInDim S262144 ![] bcast_S_S262144),
    StableHlo.TRef.binary (.of main_v19 : StableHlo.TRef sig ⟨S262144, .i32⟩) main_call3.v0 main_call3.v1 Host.divsi,
    StableHlo.TRef.unary (.of main_v19 : StableHlo.TRef sig ⟨S262144, .i32⟩) main_call3.v2 signi,
    StableHlo.TRef.unary (.of main_c_6 : StableHlo.TRef sig ⟨S_, .i32⟩) main_call3.v3 signi,
    StableHlo.TRef.unary main_call3.v3 main_call3.v4 (broadcastInDim S262144 ![] bcast_S_S262144),
    StableHlo.TRef.binary main_call3.v2 main_call3.v4 main_call3.v5 (cmpi .ne),
    StableHlo.TRef.unary (.of main_c_6 : StableHlo.TRef sig ⟨S_, .i32⟩) main_call3.v6 (broadcastInDim S262144 ![] bcast_S_S262144),
    StableHlo.TRef.binary (.of main_v19 : StableHlo.TRef sig ⟨S262144, .i32⟩) main_call3.v6 main_call3.v7 Host.remsi,
    StableHlo.TRef.nullary main_call3.c (constantI S_ 32 0#32),
    StableHlo.TRef.unary main_call3.c main_call3.v8 (broadcastInDim S262144 ![] bcast_S_S262144),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S262144 ![] bcast_S_S262144),
    StableHlo.TRef.binary main_call3.v1 main_call3.v11 main_call3.v12 subi,
    StableHlo.TRef.ternary main_call3.v10 main_call3.v12 main_call3.v1 main_call3.call0.v0 select,
    StableHlo.nullary main_c_7 (constantI S_ 32 262144#32),
    StableHlo.TRef.unary (.of main_c_7 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S262144 ![] bcast_S_S262144),
    StableHlo.TRef.binary (.of main_v20 : StableHlo.TRef sig ⟨S262144, .i32⟩) main_call4.v3 main_call4.v4 Host.remsi,
    StableHlo.TRef.nullary main_call4.c_1 (constantI S_ 32 0#32),
    StableHlo.TRef.unary main_call4.c_1 main_call4.v5 (broadcastInDim S262144 ![] bcast_S_S262144),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S262144 ![] bcast_S_S262144),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S262144 ![] bcast_S_S262144),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S262144 ![] bcast_S_S262144),
    StableHlo.TRef.binary main_call4.v4 main_call4.v13 main_call4.v14 addi,
    StableHlo.TRef.ternary main_call4.v12 main_call4.v14 main_call4.v4 main_call4.v15 select,
    StableHlo.nullary main_v22 (iotaInDim S262144 32 0),
    StableHlo.unary main_v7 main_v23 ((extui 32 · natLt_1_32) : (⟨S262144, .i1⟩ : BufTy).Contents (Elt F) → (⟨S262144, .i32⟩ : BufTy).Contents (Elt F)),
    StableHlo.nullary main_c_8 (constantI S_ 32 0#32),
    StableHlo.binary main_v23 main_c_8 main_v24 ((fun x v => Host.reduce IntOp.addi x v reducesTo_S262144_S_d0 h_S_) : (⟨S262144, .i32⟩ : BufTy).Contents (Elt F) → (⟨S_, .i32⟩ : BufTy).Contents (Elt F) → (⟨S_, .i32⟩ : BufTy).Contents (Elt F)),
    StableHlo.unary main_v24 main_v25 (broadcastInDim S262144 ![] bcast_S_S262144 : (⟨S_, .i32⟩ : BufTy).Contents (Elt F) → (⟨S262144, .i32⟩ : BufTy).Contents (Elt F)),
    StableHlo.binary main_v22 main_v25 main_v26 (cmpi .sge : (⟨S262144, .i32⟩ : BufTy).Contents (Elt F) → (⟨S262144, .i32⟩ : BufTy).Contents (Elt F) → (⟨S262144, .i1⟩ : BufTy).Contents (Elt F)),
    StableHlo.nullary main_c_9 (constantI S_ 32 4294967295#32),
    StableHlo.TRef.unary (.of main_c_9 : StableHlo.TRef sig ⟨S_, .i32⟩) main_call5.v0 id,
    StableHlo.TRef.unary main_call5.v0 main_call5.v1 (broadcastInDim S262144 ![] bcast_S_S262144),
    StableHlo.TRef.ternary (.of main_v26 : StableHlo.TRef sig ⟨S262144, .i1⟩) main_call5.v1 (.of main_v21 : StableHlo.TRef sig ⟨S262144, .i32⟩) main_call5.v2 select,
    StableHlo.nullary main_c_10 (constantI S_ 32 0#32),
    StableHlo.unary main_c_10 main_v28 (broadcastInDim S262144 ![] bcast_S_S262144 : (⟨S_, .i32⟩ : BufTy).Contents (Elt F) → (⟨S262144, .i32⟩ : BufTy).Contents (Elt F)),
    StableHlo.binary main_v27 main_v28 main_v29 (cmpi .sge : (⟨S262144, .i32⟩ : BufTy).Contents (Elt F) → (⟨S262144, .i32⟩ : BufTy).Contents (Elt F) → (⟨S262144, .i1⟩ : BufTy).Contents (Elt F)),
    StableHlo.nullary main_c_11 (constantI S_ 32 0#32),
    StableHlo.unary main_c_11 main_v30 (broadcastInDim S262144 ![] bcast_S_S262144 : (⟨S_, .i32⟩ : BufTy).Contents (Elt F) → (⟨S262144, .i32⟩ : BufTy).Contents (Elt F)),
    StableHlo.binary main_v27 main_v30 main_v31 (maxsi : (⟨S262144, .i32⟩ : BufTy).Contents (Elt F) → (⟨S262144, .i32⟩ : BufTy).Contents (Elt F) → (⟨S262144, .i32⟩ : BufTy).Contents (Elt F)),
    StableHlo.nullary main_c_12 (constantI S_ 32 16384#32),
    StableHlo.TRef.unary (.of main_c_12 : StableHlo.TRef sig ⟨S_, .i32⟩) main_call6.v0 id,
    StableHlo.TRef.unary main_call6.v0 main_call6.v1 (broadcastInDim S262144 ![] bcast_S_S262144),
    StableHlo.TRef.binary (.of main_v31 : StableHlo.TRef sig ⟨S262144, .i32⟩) main_call6.v1 main_call6.v2 Host.divsi,
    StableHlo.TRef.unary (.of main_v31 : StableHlo.TRef sig ⟨S262144, .i32⟩) main_call6.v3 signi,
    StableHlo.TRef.unary main_call6.v0 main_call6.v4 signi,
    StableHlo.TRef.unary main_call6.v4 main_call6.v5 (broadcastInDim S262144 ![] bcast_S_S262144),
    StableHlo.TRef.binary main_call6.v3 main_call6.v5 main_call6.v6 (cmpi .ne),
    StableHlo.TRef.unary main_call6.v0 main_call6.v7 (broadcastInDim S262144 ![] bcast_S_S262144),
    StableHlo.TRef.binary (.of main_v31 : StableHlo.TRef sig ⟨S262144, .i32⟩) main_call6.v7 main_call6.v8 Host.remsi,
    StableHlo.TRef.nullary main_call6.c (constantI S_ 32 0#32),
    StableHlo.TRef.unary main_call6.c main_call6.v9 (broadcastInDim S262144 ![] bcast_S_S262144),
    StableHlo.TRef.binary main_call6.v8 main_call6.v9 main_call6.v10 (cmpi .ne),
    StableHlo.TRef.binary main_call6.v6 main_call6.v10 main_call6.v11 andi,
    StableHlo.TRef.nullary main_call6.c_0 (constantI S_ 32 1#32),
    StableHlo.TRef.unary main_call6.c_0 main_call6.v12 (broadcastInDim S262144 ![] bcast_S_S262144),
    StableHlo.TRef.binary main_call6.v2 main_call6.v12 main_call6.v13 subi,
    StableHlo.TRef.ternary main_call6.v11 main_call6.v13 main_call6.v2 main_call6.call0.v0 select,
    StableHlo.nullary main_c_13 (constantI S_ 32 16384#32),
    StableHlo.TRef.unary (.of main_c_13 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S262144 ![] bcast_S_S262144),
    StableHlo.TRef.binary (.of main_v31 : StableHlo.TRef sig ⟨S262144, .i32⟩) main_call7.v3 main_call7.v4 Host.remsi,
    StableHlo.TRef.nullary main_call7.c_1 (constantI S_ 32 0#32),
    StableHlo.TRef.unary main_call7.c_1 main_call7.v5 (broadcastInDim S262144 ![] bcast_S_S262144),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S262144 ![] bcast_S_S262144),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S262144 ![] bcast_S_S262144),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S262144 ![] bcast_S_S262144),
    StableHlo.TRef.binary main_call7.v4 main_call7.v13 main_call7.v14 addi,
    StableHlo.TRef.ternary main_call7.v12 main_call7.v14 main_call7.v4 main_call7.v15 select,
    StableHlo.nullary main_c_14 (constantI S_ 32 128#32),
    StableHlo.TRef.unary (.of main_c_14 : StableHlo.TRef sig ⟨S_, .i32⟩) main_call8.v0 id,
    StableHlo.TRef.unary main_call8.v0 main_call8.v1 (broadcastInDim S262144 ![] bcast_S_S262144),
    StableHlo.TRef.binary (.of main_v33 : StableHlo.TRef sig ⟨S262144, .i32⟩) main_call8.v1 main_call8.v2 Host.divsi,
    StableHlo.TRef.unary (.of main_v33 : StableHlo.TRef sig ⟨S262144, .i32⟩) main_call8.v3 signi,
    StableHlo.TRef.unary main_call8.v0 main_call8.v4 signi,
    StableHlo.TRef.unary main_call8.v4 main_call8.v5 (broadcastInDim S262144 ![] bcast_S_S262144),
    StableHlo.TRef.binary main_call8.v3 main_call8.v5 main_call8.v6 (cmpi .ne),
    StableHlo.TRef.unary main_call8.v0 main_call8.v7 (broadcastInDim S262144 ![] bcast_S_S262144),
    StableHlo.TRef.binary (.of main_v33 : StableHlo.TRef sig ⟨S262144, .i32⟩) main_call8.v7 main_call8.v8 Host.remsi,
    StableHlo.TRef.nullary main_call8.c (constantI S_ 32 0#32),
    StableHlo.TRef.unary main_call8.c main_call8.v9 (broadcastInDim S262144 ![] bcast_S_S262144),
    StableHlo.TRef.binary main_call8.v8 main_call8.v9 main_call8.v10 (cmpi .ne),
    StableHlo.TRef.binary main_call8.v6 main_call8.v10 main_call8.v11 andi,
    StableHlo.TRef.nullary main_call8.c_0 (constantI S_ 32 1#32),
    StableHlo.TRef.unary main_call8.c_0 main_call8.v12 (broadcastInDim S262144 ![] bcast_S_S262144),
    StableHlo.TRef.binary main_call8.v2 main_call8.v12 main_call8.v13 subi,
    StableHlo.TRef.ternary main_call8.v11 main_call8.v13 main_call8.v2 main_call8.call0.v0 select,
    StableHlo.nullary main_c_15 (constantI S_ 32 128#32),
    StableHlo.TRef.unary (.of main_c_15 : StableHlo.TRef sig ⟨S_, .i32⟩) main_call9.v0 id,
    StableHlo.TRef.nullary main_call9.c (constantI S_ 32 0#32),
    StableHlo.TRef.binary main_call9.v0 main_call9.c main_call9.v1 (cmpi .eq),
    StableHlo.TRef.nullary main_call9.c_0 (constantI S_ 32 1#32),
    StableHlo.TRef.ternary main_call9.v1 main_call9.c_0 main_call9.v0 main_call9.call0.v0 select,
    StableHlo.TRef.unary main_call9.call0.v0 main_call9.v3 (broadcastInDim S262144 ![] bcast_S_S262144),
    StableHlo.TRef.binary (.of main_v33 : StableHlo.TRef sig ⟨S262144, .i32⟩) main_call9.v3 main_call9.v4 Host.remsi,
    StableHlo.TRef.nullary main_call9.c_1 (constantI S_ 32 0#32),
    StableHlo.TRef.unary main_call9.c_1 main_call9.v5 (broadcastInDim S262144 ![] bcast_S_S262144),
    StableHlo.TRef.binary main_call9.v4 main_call9.v5 main_call9.v6 (cmpi .ne),
    StableHlo.TRef.nullary main_call9.c_2 (constantI S_ 32 0#32),
    StableHlo.TRef.unary main_call9.c_2 main_call9.v7 (broadcastInDim S262144 ![] bcast_S_S262144),
    StableHlo.TRef.binary main_call9.v4 main_call9.v7 main_call9.v8 (cmpi .slt),
    StableHlo.TRef.nullary main_call9.c_3 (constantI S_ 32 0#32),
    StableHlo.TRef.binary main_call9.call0.v0 main_call9.c_3 main_call9.v9 (cmpi .slt),
    StableHlo.TRef.unary main_call9.v9 main_call9.v10 (broadcastInDim S262144 ![] bcast_S_S262144),
    StableHlo.TRef.binary main_call9.v8 main_call9.v10 main_call9.v11 (cmpi .ne),
    StableHlo.TRef.binary main_call9.v11 main_call9.v6 main_call9.v12 andi,
    StableHlo.TRef.unary main_call9.call0.v0 main_call9.v13 (broadcastInDim S262144 ![] bcast_S_S262144),
    StableHlo.TRef.binary main_call9.v4 main_call9.v13 main_call9.v14 addi,
    StableHlo.TRef.ternary main_call9.v12 main_call9.v14 main_call9.v4 main_call9.v15 select,
    StableHlo.nullary main_c_16 (constantI S_ 32 4294967295#32),
    StableHlo.unary main_c_16 main_v36 (broadcastInDim S262144 ![] bcast_S_S262144 : (⟨S_, .i32⟩ : BufTy).Contents (Elt F) → (⟨S262144, .i32⟩ : BufTy).Contents (Elt F)),
    StableHlo.TRef.ternary (.of main_v29 : StableHlo.TRef sig ⟨S262144, .i1⟩) (.of main_v32 : StableHlo.TRef sig ⟨S262144, .i32⟩) (.of main_v36 : StableHlo.TRef sig ⟨S262144, .i32⟩) main_call10.v0 select,
    StableHlo.TRef.ternary (.of main_v29 : StableHlo.TRef sig ⟨S262144, .i1⟩) (.of main_v34 : StableHlo.TRef sig ⟨S262144, .i32⟩) (.of main_v36 : StableHlo.TRef sig ⟨S262144, .i32⟩) main_call11.v0 select,
    StableHlo.TRef.ternary (.of main_v29 : StableHlo.TRef sig ⟨S262144, .i1⟩) (.of main_v35 : StableHlo.TRef sig ⟨S262144, .i32⟩) (.of main_v36 : StableHlo.TRef sig ⟨S262144, .i32⟩) main_call12.v0 select ]

/-- The last four: each coordinate vector as a column, and the three columns side by side. -/
abbrev opsLast : List (HloOp τ sig (Elt F)) :=
  [ StableHlo.unary main_v37 main_v40 (broadcastInDim S262144x1 ![0] bcast_S262144_S262144x1_0 : (⟨S262144, .i32⟩ : BufTy).Contents (Elt F) → (⟨S262144x1, .i32⟩ : BufTy).Contents (Elt F)),
    StableHlo.unary main_v38 main_v41 (broadcastInDim S262144x1 ![0] bcast_S262144_S262144x1_0 : (⟨S262144, .i32⟩ : BufTy).Contents (Elt F) → (⟨S262144x1, .i32⟩ : BufTy).Contents (Elt F)),
    StableHlo.unary main_v39 main_v42 (broadcastInDim S262144x1 ![0] bcast_S262144_S262144x1_0 : (⟨S262144, .i32⟩ : BufTy).Contents (Elt F) → (⟨S262144x1, .i32⟩ : BufTy).Contents (Elt F)),
    StableHlo.nary ![main_v40, main_v41, main_v42] main_v43 (fun u => concatenate S262144x3 1 [⟨S262144x1, u 0⟩, ⟨S262144x1, u 1⟩, ⟨S262144x1, u 2⟩] concatenates_S262144x1_S262144x1_S262144x1_S262144x3_d1) ]

/-- The whole line. -/
abbrev ops : List (HloOp τ sig (Elt F)) := opsHead ++ (opsMid ++ opsLast)

set_option maxRecDepth 16384 in
set_option maxHeartbeats 4000000 in
/-- The entry function is that line: the helpers unfolded at their calls, sequencing reassociated. -/
theorem main_eq (c : Dev nD) : main (F := F) c = seq ops := by
  simp only [main, main_part0, main_part1, fn_cumsum_0.body, fn_cumsum.body, fn_clip.body, fn_cumsum_1.body, fn_where.body, fn_floor_divide.body, fn_where_2.body, fn_remainder.body, fn_where_3.body, fn_floor_divide_4.body,
    ops, opsHead, opsMid, opsLast, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsHead_sub : (opsHead : List (HloOp τ sig (Elt F))).Forall fun op => op.bufs ⊆ tcRefs τ sig :=
  ⟨StableHlo.reshape_bufs_sub .., StableHlo.reshape_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.reshape_bufs_sub ..⟩
theorem opsMid_sub : (opsMid : List (HloOp τ sig (Elt F))).Forall fun op => op.bufs ⊆ tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.ternary_bufs_sub .., StableHlo.ternary_bufs_sub .., StableHlo.ternary_bufs_sub ..⟩
theorem opsLast_sub : (opsLast : List (HloOp τ sig (Elt F))).Forall fun op => op.bufs ⊆ tcRefs τ sig :=
  ⟨StableHlo.unary_bufs_sub .., StableHlo.unary_bufs_sub .., StableHlo.unary_bufs_sub .., StableHlo.nary_bufs_sub ..⟩

theorem ops_sub : (ops : List (HloOp τ sig (Elt F))).Forall fun op => op.bufs ⊆ tcRefs τ sig := by
  rw [List.forall_iff_forall_mem]
  intro op hop
  rcases List.mem_append.mp hop with h | h
  · exact (List.forall_iff_forall_mem.mp opsHead_sub) op h
  · rcases List.mem_append.mp h with h | h
    · exact (List.forall_iff_forall_mem.mp opsMid_sub) op h
    · exact (List.forall_iff_forall_mem.mp opsLast_sub) op h

theorem opsHead_fresh : (opsHead : List (HloOp τ sig (Elt F))).Forall fun op => op.fresh = ∅ := by
  simp only [List.Forall]; repeat' constructor
theorem opsMid_fresh : (opsMid : List (HloOp τ sig (Elt F))).Forall fun op => op.fresh = ∅ := by
  simp only [List.Forall]; repeat' constructor
theorem opsLast_fresh : (opsLast : List (HloOp τ sig (Elt F))).Forall fun op => op.fresh = ∅ := by
  simp only [List.Forall]; repeat' constructor

theorem ops_fresh : ∀ op ∈ (ops : List (HloOp τ sig (Elt F))), op.fresh = ∅ := by
  intro op hop
  rcases List.mem_append.mp hop with h | h
  · exact (List.forall_iff_forall_mem.mp opsHead_fresh) op h
  · rcases List.mem_append.mp h with h | h
    · exact (List.forall_iff_forall_mem.mp opsMid_fresh) op h
    · exact (List.forall_iff_forall_mem.mp opsLast_fresh) op h

/-- From any memory with zero counters every weakly fair execution of the reference terminates, and each buffer ends
    at the fold of the line over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.HostRun

end
-- ==== Proof.Tails.lean ====
/-
  The two programs compact the same flags the same way.

  After the flags of the active blocks are flattened to one vector of 262144 bits, both programs run the same 168 host
  operations on it: a running count of the set bits, a scatter of ones at the clamped counts, a second running count that
  turns the scattered ones into, for each output slot, the position of the bit it holds, the fill with minus one from the
  total count on, and the three coordinates (image, block row, block column) of each position by floor division and
  remainder, side by side as three columns. The operations are the same functions in the same order on buffers that
  correspond one to one, so each program's fold over them, read at a coordinate vector, is one and the same term in the
  flattened flags; no property of the operations themselves is used.
-/
import proofs.«147291_j70222715290212_2_alg».proof.Proof.RefRun
import proofs.«147291_j70222715290212_2_alg».proof.Proof.KernelIdealRun

noncomputable section

namespace Cert.Compaction

open Idealize.ShloMosaic Idealize.ShloMosaic.TcCoe Idealize.SL.Sem Idealize.ShloMosaic.StableHlo

variable {F : FTy → Type} [FloatOps F]

/-- The kernel program's 164 middle operations: the later stretches but the first (the flags, their count, the
    flattening) and the last (the columns side by side). -/
abbrev kerMid : List (HloOp Cert.KernelIdeal.τ Cert.KernelIdeal.sig (Elt F)) :=
  Cert.KernelIdeal.Gen.hostOps1_1 ++ (Cert.KernelIdeal.Gen.hostOps1_2 ++ (Cert.KernelIdeal.Gen.hostOps1_3 ++ (Cert.KernelIdeal.Gen.hostOps1_4 ++ (Cert.KernelIdeal.Gen.hostOps1_5 ++ (Cert.KernelIdeal.Gen.hostOps1_6 ++ (Cert.KernelIdeal.Gen.hostOps1_7 ++ (Cert.KernelIdeal.Gen.hostOps1_8 ++ (Cert.KernelIdeal.Gen.hostOps1_9 ++ (Cert.KernelIdeal.Gen.hostOps1_10 ++ (Cert.KernelIdeal.Gen.hostOps1_11 ++ (Cert.KernelIdeal.Gen.hostOps1_12 ++ (Cert.KernelIdeal.Gen.hostOps1_13 ++ (Cert.KernelIdeal.Gen.hostOps1_14 ++ (Cert.KernelIdeal.Gen.hostOps1_15 ++ (Cert.KernelIdeal.Gen.hostOps1_16 ++ (Cert.KernelIdeal.Gen.hostOps1_17 ++ (Cert.KernelIdeal.Gen.hostOps1_18 ++ (Cert.KernelIdeal.Gen.hostOps1_19 ++ (Cert.KernelIdeal.Gen.hostOps1_20 ++ (Cert.KernelIdeal.Gen.hostOps1_21 ++ (Cert.KernelIdeal.Gen.hostOps1_22 ++ (Cert.KernelIdeal.Gen.hostOps1_23))))))))))))))))))))))

/-- The later lines are the first stretch, the middle, the last. -/
theorem sfx_flatten : (Cert.KernelIdeal.Pool.sfx (F := F)).flatten
    = Cert.KernelIdeal.Gen.hostOps1 ++ (kerMid ++ Cert.KernelIdeal.Gen.hostOps1_24) := by
  simp only [Cert.KernelIdeal.Pool.sfx, kerMid, List.flatten_cons, List.flatten_nil, List.append_nil, List.append_assoc]

set_option maxRecDepth 65536 in
set_option maxHeartbeats 16000000 in
/-- The image coordinate of each slot: one term in the flattened flags on both sides. -/
theorem col_image (Wr : Valuation Cert.ReferenceIdeal.τ Cert.ReferenceIdeal.sig (Elt F)) (Wk : Valuation Cert.KernelIdeal.τ Cert.KernelIdeal.sig (Elt F))
    (x : IVec Cert.KernelIdeal.S262144 1)
    (hr : Wr (Proc.devRef .tc Cert.ReferenceIdeal.main_v7) = x) (hk : Wk (Proc.devRef .tc Cert.KernelIdeal.main_v5) = x) :
    after Cert.ReferenceIdeal.HostRun.opsMid Wr (Proc.devRef .tc Cert.ReferenceIdeal.main_v37)
      = after kerMid Wk (Proc.devRef .tc Cert.KernelIdeal.main_v35) := by
  simp (disch := decide) only [Cert.ReferenceIdeal.HostRun.opsMid, kerMid, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, List.cons_append, List.nil_append, after_cons, after_nil, nullary_result', unary_result', binary_result', ternary_result', quaternary_result', reshape_result', nary_result', nullary_result_ne', unary_result_ne', binary_result_ne', ternary_result_ne', quaternary_result_ne', reshape_result_ne', nary_result_ne']
  rw [hr, hk]
  rfl

set_option maxRecDepth 65536 in
set_option maxHeartbeats 16000000 in
/-- The block-row coordinate of each slot. -/
theorem col_row (Wr : Valuation Cert.ReferenceIdeal.τ Cert.ReferenceIdeal.sig (Elt F)) (Wk : Valuation Cert.KernelIdeal.τ Cert.KernelIdeal.sig (Elt F))
    (x : IVec Cert.KernelIdeal.S262144 1)
    (hr : Wr (Proc.devRef .tc Cert.ReferenceIdeal.main_v7) = x) (hk : Wk (Proc.devRef .tc Cert.KernelIdeal.main_v5) = x) :
    after Cert.ReferenceIdeal.HostRun.opsMid Wr (Proc.devRef .tc Cert.ReferenceIdeal.main_v38)
      = after kerMid Wk (Proc.devRef .tc Cert.KernelIdeal.main_v36) := by
  simp (disch := decide) only [Cert.ReferenceIdeal.HostRun.opsMid, kerMid, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, List.cons_append, List.nil_append, after_cons, after_nil, nullary_result', unary_result', binary_result', ternary_result', quaternary_result', reshape_result', nary_result', nullary_result_ne', unary_result_ne', binary_result_ne', ternary_result_ne', quaternary_result_ne', reshape_result_ne', nary_result_ne']
  rw [hr, hk]
  rfl

set_option maxRecDepth 65536 in
set_option maxHeartbeats 16000000 in
/-- The block-column coordinate of each slot. -/
theorem col_col (Wr : Valuation Cert.ReferenceIdeal.τ Cert.ReferenceIdeal.sig (Elt F)) (Wk : Valuation Cert.KernelIdeal.τ Cert.KernelIdeal.sig (Elt F))
    (x : IVec Cert.KernelIdeal.S262144 1)
    (hr : Wr (Proc.devRef .tc Cert.ReferenceIdeal.main_v7) = x) (hk : Wk (Proc.devRef .tc Cert.KernelIdeal.main_v5) = x) :
    after Cert.ReferenceIdeal.HostRun.opsMid Wr (Proc.devRef .tc Cert.ReferenceIdeal.main_v39)
      = after kerMid Wk (Proc.devRef .tc Cert.KernelIdeal.main_v37) := by
  simp (disch := decide) only [Cert.ReferenceIdeal.HostRun.opsMid, kerMid, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, List.cons_append, List.nil_append, after_cons, after_nil, nullary_result', unary_result', binary_result', ternary_result', quaternary_result', reshape_result', nary_result', nullary_result_ne', unary_result_ne', binary_result_ne', ternary_result_ne', quaternary_result_ne', reshape_result_ne', nary_result_ne']
  rw [hr, hk]
  rfl

/-- Three coordinate vectors as columns, side by side: the table of coordinates. -/
def table (a b c : IVec Cert.KernelIdeal.S262144 32) : IVec Cert.KernelIdeal.S262144x3 32 :=
  concatenate Cert.KernelIdeal.S262144x3 1
    [⟨Cert.KernelIdeal.S262144x1, broadcastInDim Cert.KernelIdeal.S262144x1 ![0] Cert.KernelIdeal.Gen.bcast_S262144_S262144x1_0 a⟩,
     ⟨Cert.KernelIdeal.S262144x1, broadcastInDim Cert.KernelIdeal.S262144x1 ![0] Cert.KernelIdeal.Gen.bcast_S262144_S262144x1_0 b⟩,
     ⟨Cert.KernelIdeal.S262144x1, broadcastInDim Cert.KernelIdeal.S262144x1 ![0] Cert.KernelIdeal.Gen.bcast_S262144_S262144x1_0 c⟩]
    Cert.KernelIdeal.Gen.concatenates_S262144x1_S262144x1_S262144x1_S262144x3_d1

attribute [local irreducible] concatenate broadcastInDim in
/-- The reference's last four lines make the table of its three coordinate vectors. -/
theorem ref_last (W : Valuation Cert.ReferenceIdeal.τ Cert.ReferenceIdeal.sig (Elt F)) :
    after Cert.ReferenceIdeal.HostRun.opsLast W (Proc.devRef .tc Cert.ReferenceIdeal.main_v43)
      = table (W (Proc.devRef .tc Cert.ReferenceIdeal.main_v37)) (W (Proc.devRef .tc Cert.ReferenceIdeal.main_v38))
          (W (Proc.devRef .tc Cert.ReferenceIdeal.main_v39)) := by
  simp only [Cert.ReferenceIdeal.HostRun.opsLast, after_cons, after_nil]
  rfl

attribute [local irreducible] concatenate broadcastInDim in
/-- The kernel program's last four lines make the table of its three coordinate vectors. -/
theorem ker_last (W : Valuation Cert.KernelIdeal.τ Cert.KernelIdeal.sig (Elt F)) :
    after Cert.KernelIdeal.Gen.hostOps1_24 W (Proc.devRef .tc Cert.KernelIdeal.main_v41)
      = table (W (Proc.devRef .tc Cert.KernelIdeal.main_v35)) (W (Proc.devRef .tc Cert.KernelIdeal.main_v36))
          (W (Proc.devRef .tc Cert.KernelIdeal.main_v37)) := by
  simp only [Cert.KernelIdeal.Gen.hostOps1_24, after_cons, after_nil]
  rfl

set_option maxRecDepth 65536 in
set_option maxHeartbeats 4000000 in
/-- The reference's compaction writes neither the mask nor the count of active blocks. -/
theorem ref_mid_keeps (W : Valuation Cert.ReferenceIdeal.τ Cert.ReferenceIdeal.sig (Elt F)) :
    after Cert.ReferenceIdeal.HostRun.opsMid W (Proc.devRef .tc Cert.ReferenceIdeal.main_v6) = W (Proc.devRef .tc Cert.ReferenceIdeal.main_v6)
    ∧ after Cert.ReferenceIdeal.HostRun.opsMid W (Proc.devRef .tc Cert.ReferenceIdeal.main_arg0) = W (Proc.devRef .tc Cert.ReferenceIdeal.main_arg0) := by
  constructor <;> simp (disch := decide) only [Cert.ReferenceIdeal.HostRun.opsMid, after_cons, after_nil, nullary_result', unary_result', binary_result', ternary_result', quaternary_result', reshape_result', nary_result', nullary_result_ne', unary_result_ne', binary_result_ne', ternary_result_ne', quaternary_result_ne', reshape_result_ne', nary_result_ne']

set_option maxRecDepth 65536 in
theorem ref_last_keeps (W : Valuation Cert.ReferenceIdeal.τ Cert.ReferenceIdeal.sig (Elt F)) :
    after Cert.ReferenceIdeal.HostRun.opsLast W (Proc.devRef .tc Cert.ReferenceIdeal.main_v6) = W (Proc.devRef .tc Cert.ReferenceIdeal.main_v6)
    ∧ after Cert.ReferenceIdeal.HostRun.opsLast W (Proc.devRef .tc Cert.ReferenceIdeal.main_arg0) = W (Proc.devRef .tc Cert.ReferenceIdeal.main_arg0) := by
  constructor <;> simp (disch := decide) only [Cert.ReferenceIdeal.HostRun.opsLast, after_cons, after_nil, nullary_result', unary_result', binary_result', ternary_result', quaternary_result', reshape_result', nary_result', nullary_result_ne', unary_result_ne', binary_result_ne', ternary_result_ne', quaternary_result_ne', reshape_result_ne', nary_result_ne']

/-- The reference's whole line read at the count and at the mask: the head's values. -/
theorem ref_count (V : Valuation Cert.ReferenceIdeal.τ Cert.ReferenceIdeal.sig (Elt F)) :
    after Cert.ReferenceIdeal.HostRun.ops V (Proc.devRef .tc Cert.ReferenceIdeal.main_v6)
      = after Cert.ReferenceIdeal.HostRun.opsHead V (Proc.devRef .tc Cert.ReferenceIdeal.main_v6) := by
  show after (Cert.ReferenceIdeal.HostRun.opsHead ++ (Cert.ReferenceIdeal.HostRun.opsMid ++ Cert.ReferenceIdeal.HostRun.opsLast)) V _ = _
  rw [StableHlo.after_append, StableHlo.after_append, (ref_last_keeps _).1, (ref_mid_keeps _).1]

theorem ref_mask (V : Valuation Cert.ReferenceIdeal.τ Cert.ReferenceIdeal.sig (Elt F)) :
    after Cert.ReferenceIdeal.HostRun.ops V (Proc.devRef .tc Cert.ReferenceIdeal.main_arg0)
      = after Cert.ReferenceIdeal.HostRun.opsHead V (Proc.devRef .tc Cert.ReferenceIdeal.main_arg0) := by
  show after (Cert.ReferenceIdeal.HostRun.opsHead ++ (Cert.ReferenceIdeal.HostRun.opsMid ++ Cert.ReferenceIdeal.HostRun.opsLast)) V _ = _
  rw [StableHlo.after_append, StableHlo.after_append, (ref_last_keeps _).2, (ref_mid_keeps _).2]

/-- The kernel program's later lines read at the count: the first stretch's value (the compaction does not write it). -/
theorem ker_count (V : Valuation Cert.KernelIdeal.τ Cert.KernelIdeal.sig (Elt F)) :
    after (Cert.KernelIdeal.Pool.sfx (F := F)).flatten V (Proc.devRef .tc Cert.KernelIdeal.main_v4)
      = after Cert.KernelIdeal.Gen.hostOps1 V (Proc.devRef .tc Cert.KernelIdeal.main_v4) := by
  show after (Cert.KernelIdeal.Gen.hostOps1 ++ (Cert.KernelIdeal.Pool.sfxTail (F := F)).flatten) V _ = _
  rw [StableHlo.after_append, StableHlo.after_of_forall_not_mem _ _ Cert.KernelIdeal.Pool.sfxTail_keeps_v4]

/-- THE COMPACTIONS AGREE: if the two programs' flattened flags are one vector, the reference's line read at its
    table of coordinates and the kernel program's later lines read at theirs are equal. -/
theorem tables_agree (Vr : Valuation Cert.ReferenceIdeal.τ Cert.ReferenceIdeal.sig (Elt F)) (Vk : Valuation Cert.KernelIdeal.τ Cert.KernelIdeal.sig (Elt F))
    (h : after Cert.ReferenceIdeal.HostRun.opsHead Vr (Proc.devRef .tc Cert.ReferenceIdeal.main_v7)
      = after Cert.KernelIdeal.Gen.hostOps1 Vk (Proc.devRef .tc Cert.KernelIdeal.main_v5)) :
    after Cert.ReferenceIdeal.HostRun.ops Vr (Proc.devRef .tc Cert.ReferenceIdeal.main_v43)
      = after (Cert.KernelIdeal.Pool.sfx (F := F)).flatten Vk (Proc.devRef .tc Cert.KernelIdeal.main_v41) := by
  rw [sfx_flatten]
  show after (Cert.ReferenceIdeal.HostRun.opsHead ++ (Cert.ReferenceIdeal.HostRun.opsMid ++ Cert.ReferenceIdeal.HostRun.opsLast)) Vr _ = _
  rw [StableHlo.after_append, StableHlo.after_append, StableHlo.after_append, StableHlo.after_append]
  rw [ref_last, ker_last, col_image _ _ _ h rfl, col_row _ _ _ h rfl, col_col _ _ _ h rfl]

end Cert.Compaction

end
-- ==== Proof.LibTileMax.lean ====
/-
  The maximum over 16 x 16 tiles, read at an index on the extended reals.

  A mask of shape [16, 2048, 2048] is cut into tiles of 16 rows by 16 columns; tile (y, x) of image b has the entries
  (b, 16 y + j, 16 x + k) for j, k < 16, and its maximum is the supremum of those 256 extended reals, starting from minus
  infinity. Two arrangements of that maximum are read here, at a general index, as this one supremum:
    * the host's: the mask recast to [16, 128, 16, 128, 16] and reduced by maximum along its third and fifth axes at once
      — a fold over the set of source indices whose other three coordinates are the result's;
    * the device's, on one strip of 512 rows: the strip recast to [32, 16, 2048], reduced along the middle axis, recast to
      [32, 128, 16] and reduced along the last — a maximum over the columns of a tile of the maxima over its rows.
  Both are equal to the supremum over the tile because a fold of `max` from the bottom element is characterized by its
  upper bounds: it lies below c exactly when every term does. No finiteness of the entries is needed. The last lemma
  says that a flag bit widened to 32 bits is positive exactly when the bit is set.
-/
import Idealize.ShloMosaic.PureOps.Ideal.Laws
import Idealize.ShloMosaic.Lib.ValueIdx
import Idealize.ShloMosaic.Lib.Pipeline.Value
import Mathlib.Data.Finset.Fold

noncomputable section

namespace Cert.Lib.TileMax

open Idealize.ShloMosaic Idealize.ShloMosaic.ValueIdx

/-- The word of minus infinity denotes the bottom element. -/
theorem negInf_eq_bot : Ideal.ofBits .f32 0xFF800000#32 = (⊥ : EReal) := by simp [Ideal.ofBits, Ideal.ieee]

/-- The maximum of tile (y, x) of image b: the supremum, from the bottom element, of its 16 x 16 entries. -/
def tileMax (A : (⟨3, ![16, 2048, 2048]⟩ : Shape).Idx → EReal) (b : Fin 16) (y x : Fin 128) : EReal :=
  Finset.univ.fold max ⊥ fun k : Fin 16 => Finset.univ.fold max ⊥ fun j : Fin 16 =>
    A (ix3 b (⟨16 * y.val + j.val, by have := y.isLt; have := j.isLt; omega⟩ : Fin 2048)
      (⟨16 * x.val + k.val, by have := x.isLt; have := k.isLt; omega⟩ : Fin 2048))

/-- The same on one strip of 512 rows: tile (r, c) of the strip. -/
def stripMax (X : (⟨3, ![1, 512, 2048]⟩ : Shape).Idx → EReal) (r : Fin 32) (c : Fin 128) : EReal :=
  Finset.univ.fold max ⊥ fun k : Fin 16 => Finset.univ.fold max ⊥ fun j : Fin 16 =>
    X (ix3 (0 : Fin 1) (⟨16 * r.val + j.val, by have := r.isLt; have := j.isLt; omega⟩ : Fin 512)
      (⟨16 * c.val + k.val, by have := c.isLt; have := k.isLt; omega⟩ : Fin 2048))

/-- A strip that is rows 512 h … 512 h + 511 of image b has, as its tile (r, c), the image's tile (32 h + r, c). -/
theorem stripMax_eq_tileMax (A : (⟨3, ![16, 2048, 2048]⟩ : Shape).Idx → EReal) (X : (⟨3, ![1, 512, 2048]⟩ : Shape).Idx → EReal)
    (b : Fin 16) (h : Fin 4)
    (hX : ∀ (p : Fin 512) (w : Fin 2048), X (ix3 (0 : Fin 1) p w)
      = A (ix3 b (⟨512 * h.val + p.val, by have := h.isLt; have := p.isLt; omega⟩ : Fin 2048) w))
    (r : Fin 32) (c : Fin 128) :
    stripMax X r c = tileMax A b (⟨32 * h.val + r.val, by have := h.isLt; have := r.isLt; omega⟩ : Fin 128) c := by
  unfold stripMax tileMax
  refine Finset.fold_congr fun k _ => Finset.fold_congr fun j _ => ?_
  rw [hX]
  refine congrArg (fun q : Fin 2048 => A (ix3 b q _)) (Fin.ext ?_)
  show 512 * h.val + (16 * r.val + j.val) = 16 * (32 * h.val + r.val) + j.val
  omega

/-- The mask recast to [16, 128, 16, 128, 16], read at an index: entry (b, 16 y + j, 16 x + k). -/
theorem cast5_apply (A : (⟨3, ![16, 2048, 2048]⟩ : Shape).Idx → EReal)
    (hc : (⟨3, ![16, 2048, 2048]⟩ : Shape).ShapeCasts ⟨5, ![16, 128, 16, 128, 16]⟩)
    (a0 : Fin 16) (a1 : Fin 128) (a2 : Fin 16) (a3 : Fin 128) (a4 : Fin 16) :
    shapeCast ⟨5, ![16, 128, 16, 128, 16]⟩ A hc (ix5 a0 a1 a2 a3 a4)
      = A (ix3 a0 (⟨16 * a1.val + a2.val, by have := a1.isLt; have := a2.isLt; omega⟩ : Fin 2048)
          (⟨16 * a3.val + a4.val, by have := a3.isLt; have := a4.isLt; omega⟩ : Fin 2048)) :=
  shapeCast_apply A hc _ _ (by
    rw [Shape.rowMajor_val_three, Shape.rowMajor_val_five]
    show (a0.val * 2048 + (16 * a1.val + a2.val)) * 2048 + (16 * a3.val + a4.val)
      = (((a0.val * 128 + a1.val) * 16 + a2.val) * 128 + a3.val) * 16 + a4.val
    omega)

/-- THE HOST'S ARRANGEMENT: the recast mask reduced by maximum along its third and fifth axes, from minus infinity, read
    at (b, y, x), is the tile's maximum. -/
theorem host_tileMax (A : (⟨3, ![16, 2048, 2048]⟩ : Shape).Idx → EReal)
    (hc : (⟨3, ![16, 2048, 2048]⟩ : Shape).ShapeCasts ⟨5, ![16, 128, 16, 128, 16]⟩)
    (h' : (⟨5, ![16, 128, 16, 128, 16]⟩ : Shape).ReducesTo [2, 4] ⟨3, ![16, 128, 128]⟩)
    (init : (⟨0, ![]⟩ : Shape).Idx → EReal) (hinit : ∀ u, init u = ⊥) (hu : 0 < (⟨0, ![]⟩ : Shape).numel)
    (b : Fin 16) (y x : Fin 128) :
    Host.reduce (FloatOps.maximumf (F := Ideal) (φ := .f32)) (shapeCast ⟨5, ![16, 128, 16, 128, 16]⟩ A hc) init h' hu (ix3 b y x)
      = tileMax A b y x := by
  rw [Host.reduce_eq_fold, hinit]
  show (Finset.univ.filter fun i => h'.drop i = ix3 b y x).fold max ⊥ (shapeCast ⟨5, ![16, 128, 16, 128, 16]⟩ A hc) = _
  apply le_antisymm
  · refine (Finset.fold_max_le _).mpr ⟨bot_le, fun i hi => ?_⟩
    obtain ⟨a0, a1, a2, a3, a4, rfl⟩ : ∃ (a0 : Fin 16) (a1 : Fin 128) (a2 : Fin 16) (a3 : Fin 128) (a4 : Fin 16), i = ix5 a0 a1 a2 a3 a4 :=
      ⟨i 0, i 1, i 2, i 3, i 4, eq_ix5 i⟩
    have hd := (Finset.mem_filter.mp hi).2
    have e0 : a0.val = b.val := (h'.drop_apply_val_of_eq (ix5 a0 a1 a2 a3 a4) 0 0).symm.trans
      (congrArg (fun j : (⟨3, ![16, 128, 128]⟩ : Shape).Idx => (j 0).val) hd)
    have e1 : a1.val = y.val := (h'.drop_apply_val_of_eq (ix5 a0 a1 a2 a3 a4) 1 1).symm.trans
      (congrArg (fun j : (⟨3, ![16, 128, 128]⟩ : Shape).Idx => (j 1).val) hd)
    have e3 : a3.val = x.val := (h'.drop_apply_val_of_eq (ix5 a0 a1 a2 a3 a4) 2 3).symm.trans
      (congrArg (fun j : (⟨3, ![16, 128, 128]⟩ : Shape).Idx => (j 2).val) hd)
    obtain rfl : a0 = b := Fin.ext e0
    obtain rfl : a1 = y := Fin.ext e1
    obtain rfl : a3 = x := Fin.ext e3
    rw [cast5_apply]
    exact (Finset.le_fold_max _).mpr (Or.inr ⟨a4, Finset.mem_univ _, (Finset.le_fold_max _).mpr (Or.inr ⟨a2, Finset.mem_univ _, le_rfl⟩)⟩)
  · refine (Finset.fold_max_le _).mpr ⟨bot_le, fun k _ => (Finset.fold_max_le _).mpr ⟨bot_le, fun j _ => ?_⟩⟩
    have hdrop : h'.drop (ix5 b y j x k) = ix3 b y x := by
      funext c; apply Fin.ext
      match c with
      | ⟨0, _⟩ => exact h'.drop_apply_val_of_eq (ix5 b y j x k) 0 0
      | ⟨1, _⟩ => exact h'.drop_apply_val_of_eq (ix5 b y j x k) 1 1
      | ⟨2, _⟩ => exact h'.drop_apply_val_of_eq (ix5 b y j x k) 2 3
    exact (Finset.le_fold_max _).mpr (Or.inr ⟨ix5 b y j x k, Finset.mem_filter.mpr ⟨Finset.mem_univ _, hdrop⟩,
      le_of_eq (cast5_apply A hc b y j x k).symm⟩)

/-- The maximum along the last axis of [32, 128, 16], of a matrix [32, 2048] recast to it: over 16 consecutive columns. -/
theorem lastAxisMax_apply (Z : (⟨2, ![32, 2048]⟩ : Shape).Idx → EReal)
    (h3 : (⟨2, ![32, 2048]⟩ : Shape).ShapeCasts ⟨3, ![32, 128, 16]⟩)
    (hr2 : (⟨3, ![32, 128, 16]⟩ : Shape).Reduces [2] ⟨2, ![32, 128]⟩)
    (hφ : FKind.Formats .f32) (hacc : (0xFF800000#32 : BitVec 32) = FKind.maximumf.neutral .f32 hφ)
    (r : Fin 32) (c : Fin 128) :
    multiReduction (F := Ideal) .maximumf [2] ⟨2, ![32, 128]⟩ (shapeCast ⟨3, ![32, 128, 16]⟩ Z h3) 0xFF800000#32 hr2 hφ hacc (ix2 r c)
      = Finset.univ.fold max ⊥ fun k : Fin 16 =>
          Z (ix2 r (⟨16 * c.val + k.val, by have := c.isLt; have := k.isLt; omega⟩ : Fin 2048)) := by
  refine (Ideal.multiReduction_maximumf_single (shapeCast ⟨3, ![32, 128, 16]⟩ Z h3) _ hr2 hφ hacc (ix2 r c)).trans ?_
  rw [show FloatOps.ofBits (F := Ideal) .f32 0xFF800000#32 = (⊥ : EReal) from negInf_eq_bot]
  refine Finset.fold_congr fun (k : Fin 16) _ => ?_
  exact shapeCast_apply Z h3 _ (ix2 r (⟨16 * c.val + k.val, by have := c.isLt; have := k.isLt; omega⟩ : Fin 2048)) (by
    rw [Shape.rowMajor_val_two, Shape.rowMajor_val_three]
    show r.val * 2048 + (16 * c.val + k.val) = (r.val * 128 + c.val) * 16 + k.val
    omega)

/-- The maximum along the middle axis of [32, 16, 2048], of a strip [1, 512, 2048] recast to it: over 16 consecutive rows. -/
theorem midAxisMax_apply (X : (⟨3, ![1, 512, 2048]⟩ : Shape).Idx → EReal)
    (h1 : (⟨3, ![1, 512, 2048]⟩ : Shape).ShapeCasts ⟨2, ![512, 2048]⟩)
    (h2 : (⟨2, ![512, 2048]⟩ : Shape).ShapeCasts ⟨3, ![32, 16, 2048]⟩)
    (hr1 : (⟨3, ![32, 16, 2048]⟩ : Shape).Reduces [1] ⟨2, ![32, 2048]⟩)
    (hφ : FKind.Formats .f32) (hacc : (0xFF800000#32 : BitVec 32) = FKind.maximumf.neutral .f32 hφ)
    (r : Fin 32) (w : Fin 2048) :
    multiReduction (F := Ideal) .maximumf [1] ⟨2, ![32, 2048]⟩
        (shapeCast ⟨3, ![32, 16, 2048]⟩ (shapeCast ⟨2, ![512, 2048]⟩ X h1) h2) 0xFF800000#32 hr1 hφ hacc (ix2 r w)
      = Finset.univ.fold max ⊥ fun j : Fin 16 =>
          X (ix3 (0 : Fin 1) (⟨16 * r.val + j.val, by have := r.isLt; have := j.isLt; omega⟩ : Fin 512) w) := by
  refine (Ideal.multiReduction_maximumf_single (shapeCast ⟨3, ![32, 16, 2048]⟩ (shapeCast ⟨2, ![512, 2048]⟩ X h1) h2) _ hr1 hφ hacc (ix2 r w)).trans ?_
  rw [show FloatOps.ofBits (F := Ideal) .f32 0xFF800000#32 = (⊥ : EReal) from negInf_eq_bot]
  refine Finset.fold_congr fun (j : Fin 16) _ => ?_
  refine (shapeCast_apply (shapeCast ⟨2, ![512, 2048]⟩ X h1) h2 _
    (ix2 (⟨16 * r.val + j.val, by have := r.isLt; have := j.isLt; omega⟩ : Fin 512) w) (by
      rw [Shape.rowMajor_val_two, Shape.rowMajor_val_three]
      show (16 * r.val + j.val) * 2048 + w.val = (r.val * 16 + j.val) * 2048 + w.val
      omega)).trans ?_
  exact shapeCast_apply X h1 _ (ix3 (0 : Fin 1) (⟨16 * r.val + j.val, by have := r.isLt; have := j.isLt; omega⟩ : Fin 512) w) (by
    rw [Shape.rowMajor_val_three, Shape.rowMajor_val_two]
    show (0 * 512 + (16 * r.val + j.val)) * 2048 + w.val = (16 * r.val + j.val) * 2048 + w.val
    omega)

/-- THE DEVICE'S ARRANGEMENT on one strip: the maximum over each tile's rows first, then over its columns. -/
theorem device_stripMax (X : (⟨3, ![1, 512, 2048]⟩ : Shape).Idx → EReal)
    (h1 : (⟨3, ![1, 512, 2048]⟩ : Shape).ShapeCasts ⟨2, ![512, 2048]⟩)
    (h2 : (⟨2, ![512, 2048]⟩ : Shape).ShapeCasts ⟨3, ![32, 16, 2048]⟩)
    (hr1 : (⟨3, ![32, 16, 2048]⟩ : Shape).Reduces [1] ⟨2, ![32, 2048]⟩)
    (h3 : (⟨2, ![32, 2048]⟩ : Shape).ShapeCasts ⟨3, ![32, 128, 16]⟩)
    (hr2 : (⟨3, ![32, 128, 16]⟩ : Shape).Reduces [2] ⟨2, ![32, 128]⟩)
    (hφ : FKind.Formats .f32) (hacc : (0xFF800000#32 : BitVec 32) = FKind.maximumf.neutral .f32 hφ)
    (r : Fin 32) (c : Fin 128) :
    multiReduction (F := Ideal) .maximumf [2] ⟨2, ![32, 128]⟩
        (shapeCast ⟨3, ![32, 128, 16]⟩
          (multiReduction (F := Ideal) .maximumf [1] ⟨2, ![32, 2048]⟩
            (shapeCast ⟨3, ![32, 16, 2048]⟩ (shapeCast ⟨2, ![512, 2048]⟩ X h1) h2) 0xFF800000#32 hr1 hφ hacc) h3)
        0xFF800000#32 hr2 hφ hacc (ix2 r c)
      = stripMax X r c :=
  (lastAxisMax_apply _ h3 hr2 hφ hacc r c).trans
    (Finset.fold_congr fun k _ => midAxisMax_apply X h1 h2 hr1 hφ hacc r _)

/-- A flag bit widened to 32 bits is positive exactly when the bit is set. -/
theorem sgt_zero_setWidth (p : BitVec 1) : IntOp.cmpi .sgt (p.setWidth 32) 0#32 = p := by
  by_cases h : p = 1#1
  · subst h; decide
  · rw [eq_zero_of_ne_one h]; decide

/-- The flag of each tile: is its maximum above one half (the word 0x3F000000)? -/
def flags (A : (⟨3, ![16, 2048, 2048]⟩ : Shape).Idx → EReal) : (⟨3, ![16, 128, 128]⟩ : Shape).Idx → BitVec 1 :=
  fun i => FloatOps.cmpf (F := Ideal) (φ := .f32) .ogt (tileMax A (i 0) (i 1) (i 2)) (Ideal.ofBits .f32 0x3F000000#32)

/-- The flags as 32-bit integers, zero or one. -/
def flags32 (A : (⟨3, ![16, 2048, 2048]⟩ : Shape).Idx → EReal) : (⟨3, ![16, 128, 128]⟩ : Shape).Idx → BitVec 32 :=
  fun i => (flags A i).setWidth 32

/-- Comparing the 32-bit flags with zero gives the flags back. -/
theorem sgt_flags32 (A : (⟨3, ![16, 2048, 2048]⟩ : Shape).Idx → EReal) (z : (⟨3, ![16, 128, 128]⟩ : Shape).Idx → BitVec 32)
    (hz : ∀ i, z i = 0#32) : cmpi .sgt (flags32 A) z = flags A :=
  funext fun i => by
    show IntOp.cmpi .sgt ((flags A i).setWidth 32) (z i) = flags A i
    rw [hz]; exact sgt_zero_setWidth _

end Cert.Lib.TileMax

end
-- ==== Proof.KernelIdealValue.lean ====
/-
  What the pooling kernel writes, on the extended reals.

  At the grid point (b, h) the kernel is handed rows 512 h … 512 h + 511 of image b of the reshaped mask and writes back
  rows 32 h … 32 h + 31 of image b of its result. Entry (r, c) of what it stores is the flag of the strip's tile (r, c) —
  the maximum over the tile's rows and then over its columns, compared with one half, widened to 32 bits — and the strip's
  tile (r, c) is the image's tile (32 h + r, c). The 64 written-back blocks tile the result array, so after the region
  the array holds, at every (b, y, x), the 32-bit flag of tile (y, x) of image b of the reshaped mask.
-/
import proofs.«147291_j70222715290212_2_alg».proof.Proof.KernelIdealRun
import proofs.«147291_j70222715290212_2_alg».proof.Proof.LibTileMax
import Idealize.ShloMosaic.Lib.ValueLayout

set_option maxRecDepth 16384

noncomputable section

namespace Cert.KernelIdeal.PoolValue

open Cert.KernelIdeal Cert.KernelIdeal.Gen Cert.KernelIdeal.Pool
open Idealize.ShloMosaic Idealize.ShloMosaic.TcCoe Idealize.SL.Sem Idealize.ShloMosaic.ValueIdx
open Idealize.ShloMosaic.Pipeline (Dat)
open Cert.Lib.TileMax

variable (m : (ℓ : Loc nD τ sig) → Buf (Elt Ideal) ℓ)

/-- The mask reshaped to [16, 2048, 2048], as a function of the launch contents. -/
def mask3 (x : FVec Ideal S16x2048x2048x1 .f32) : S16x2048x2048.Idx → EReal :=
  shapeCast S16x2048x2048 x shapeCasts_S16x2048x2048x1_S16x2048x2048

/-- The kernel's operand as the region finds it: the reshaped mask. -/
theorem V_v0 (c : Dev nD) : (V m c main_v0 : S16x2048x2048.Idx → EReal) = mask3 (m ((c : Thread nD τ).loc main_arg0)) := by
  show StableHlo.after hostOps0 (fun b => m (c, b)) (Proc.devRef .tc main_v0) = _
  after_results
  rfl

/-- Entry (r, c) of what the body stores: the 32-bit flag of the strip's tile (r, c). -/
theorem pay_apply (X : Vec Ideal S1x512x2048 .f32) (u : Fin 1) (r : Fin 32) (c : Fin 128) :
    k0_pay1 X (ix3 u r c)
      = (FloatOps.cmpf (F := Ideal) (φ := .f32) .ogt (stripMax X r c) (Ideal.ofBits .f32 0x3F000000#32)).setWidth 32 := by
  unfold k0_pay1
  refine (shapeCast_ab_1ab_apply _ _ u r c).trans ?_
  exact congrArg (fun e : EReal => (FloatOps.cmpf (F := Ideal) (φ := .f32) .ogt e (Ideal.ofBits .f32 0x3F000000#32)).setWidth 32)
    (device_stripMax X shapeCasts_S1x512x2048_S512x2048 shapeCasts_S512x2048_S32x16x2048 reduces_S32x16x2048_S32x2048
      shapeCasts_S32x2048_S32x128x16 reduces_S32x128x16_S32x128 (.inl rfl) rfl r c)

/-- For a strip that is rows 512 h … of image b of a mask A: the image's flag at (b, 32 h + r, c). -/
theorem pay_of_strip (A : S16x2048x2048.Idx → EReal) (X : Vec Ideal S1x512x2048 .f32) (b : Fin 16) (h : Fin 4)
    (hX : ∀ (p : Fin 512) (w : Fin 2048), X (ix3 (0 : Fin 1) p w)
      = A (ix3 b (⟨512 * h.val + p.val, by have := h.isLt; have := p.isLt; omega⟩ : Fin 2048) w))
    (u : Fin 1) (r : Fin 32) (c : Fin 128) :
    k0_pay1 X (ix3 u r c)
      = flags32 A (ix3 b (⟨32 * h.val + r.val, by have := h.isLt; have := r.isLt; omega⟩ : Fin 128) c) := by
  rw [pay_apply, stripMax_eq_tileMax A X b h hX r c]
  rfl

theorem hz3 : (![0, 0, 0] : Fin 3 → Nat) = fun _ => 0 := funext fun a => by fin_cases a <;> rfl

/-- The printed index maps over the grid: the strip and the result block move together, image by image and strip by
    strip, both at column block zero. -/
theorem idx_facts : ∀ t : Fin cfg0.N, win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0
    ∧ win0_1.index t (0 : Fin 3) < 16 ∧ win0_1.index t (1 : Fin 3) < 4 :=
  (by decide +kernel : ∀ t : Fin grid0.N, _)

/-- Every (image, strip) is some point's. -/
theorem idx_onto : ∀ (q0 : Fin 16) (q1 : Fin 4), ∃ t : Fin cfg0.N, win0_1.index t = ![q0.val, q1.val, 0] :=
  (by decide +kernel : ∀ (q0 : Fin 16) (q1 : Fin 4), ∃ t : Fin grid0.N, win0_1.index t = ![q0.val, q1.val, 0])

/-- WHAT POINT t WRITES BACK is its block of the array of 32-bit flags of the reshaped mask. -/
theorem flushed_eq (c : Dev nD) (t : Fin cfg0.N) :
    (dats m 0 c).flushed 1 t = ((cfg0.win 1).blk t).view.read (Elt Ideal) (flags32 (V m c main_v0)) := by
  show (cfg0.win 1).cut (grid0.coords t) ((dats m 0 c).after 1 t) = _
  rw [after_out]
  unfold outBlock
  rw [View.canon_unit_zero hz3]
  simp only [View.ld_unit_zero (S := S1x512x2048) hz3]
  obtain ⟨e0, e1, e2, e3, e4, e5⟩ := idx_facts t
  funext j
  obtain ⟨u, r, cc, rfl⟩ : ∃ (u : Fin 1) (r : Fin 32) (cc : Fin 128), j = ix3 u r cc := ⟨j 0, j 1, j 2, eq_ix3 j⟩
  show k0_pay1 (iblk m c 0 t) (ix3 u r cc) = flags32 (V m c main_v0) (((cfg0.win 1).blk t).view.emb (ix3 u r cc))
  rw [pay_of_strip (V m c main_v0) (iblk m c 0 t) ⟨win0_1.index t (0 : Fin 3), e4⟩ ⟨win0_1.index t (1 : Fin 3), e5⟩ ?_ u r cc]
  · refine congrArg (flags32 (V m c main_v0)) (funext fun a => Fin.ext ?_)
    have hu : u.val = 0 := by omega
    match a with
    | ⟨0, _⟩ => show win0_1.index t (0 : Fin 3) = win0_1.index t (0 : Fin 3) * 1 + 1 * u.val; omega
    | ⟨1, _⟩ => show 32 * win0_1.index t (1 : Fin 3) + r.val = win0_1.index t (1 : Fin 3) * 32 + 1 * r.val; omega
    | ⟨2, _⟩ => show cc.val = win0_1.index t (2 : Fin 3) * 128 + 1 * cc.val; omega
  · intro p w
    show V m c main_v0 (((cfg0.win 0).blk t).view.emb (ix3 (0 : Fin 1) p w)) = _
    refine congrArg (V m c main_v0) (funext fun a => Fin.ext ?_)
    match a with
    | ⟨0, _⟩ => show win0_0.index t (0 : Fin 3) * 1 + 1 * 0 = win0_1.index t (0 : Fin 3); omega
    | ⟨1, _⟩ => show win0_0.index t (1 : Fin 3) * 512 + 1 * p.val = 512 * win0_1.index t (1 : Fin 3) + p.val; omega
    | ⟨2, _⟩ => show win0_0.index t (2 : Fin 3) * 2048 + 1 * w.val = w.val; omega

/-- An index of the result array is in point t's block iff each coordinate is in the block's range on its axis. -/
theorem mem_blk (t : Fin cfg0.N) (i : S16x128x128.Idx) :
    i ∈ ((cfg0.win 1).blk t).view.set ↔ ∀ a : Fin 3, win0_1.index t a * S1x32x128.size a ≤ (i a).val
      ∧ (i a).val < win0_1.index t a * S1x32x128.size a + S1x32x128.size a := by
  show i ∈ ((View.whole main_v1).slice (win0_1.rect t)).set ↔ _
  rw [View.set_slice_whole, Rect.mem_set_unit]
  exact Iff.rfl

/-- The written-back blocks cover the result array. -/
theorem cover (i : S16x128x128.Idx) : ∃ t : Fin cfg0.N, (cfg0.win 1).flush t = true ∧ i ∈ ((cfg0.win 1).blk t).view.set := by
  have hi0 : (i 0).val < 16 := (i 0).isLt
  have hi1 : (i 1).val < 128 := (i 1).isLt
  have hi2 : (i 2).val < 128 := (i 2).isLt
  obtain ⟨t, ht⟩ := idx_onto ⟨(i 0).val, hi0⟩ ⟨(i 1).val / 32, by omega⟩
  have q0 : win0_1.index t (0 : Fin 3) = (i 0).val := congrFun ht 0
  have q1 : win0_1.index t (1 : Fin 3) = (i 1).val / 32 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 32 ≤ (i 1).val ∧ (i 1).val < win0_1.index t (1 : Fin 3) * 32 + 32; omega
  | ⟨2, _⟩ => show win0_1.index t (2 : Fin 3) * 128 ≤ (i 2).val ∧ (i 2).val < win0_1.index t (2 : Fin 3) * 128 + 128; omega

/-- THE RESULT ARRAY after the region: the 32-bit flags of the reshaped mask. -/
theorem final (c : Dev nD) :
    (dats m 0 c).arrAt 1 cfg0.N = flags32 (mask3 (m ((c : Thread nD τ).loc main_arg0))) := by
  rw [← V_v0 m c]
  exact (dats m 0 c).arrAt_eq_of_cover 1 (flags32 (V m c main_v0)) (fun t _ => flushed_eq m c t) cover

end Cert.KernelIdeal.PoolValue

end
-- ==== Proof.RefValue.lean ====
/-
  The head of the reference's line, on the extended reals.

  The first eleven operations recast the mask to [16, 128, 16, 128, 16], take the maximum over the third and fifth axes
  from minus infinity, compare it with one half, count the flags that are set, and flatten the flags. Read at an index
  (b, y, x) the reduced maximum is the maximum of tile (y, x) of image b, so the comparison is that tile's flag.
-/
import proofs.«147291_j70222715290212_2_alg».proof.Proof.RefRun
import proofs.«147291_j70222715290212_2_alg».proof.Proof.LibTileMax

set_option maxRecDepth 16384

noncomputable section

namespace Cert.ReferenceIdeal.HeadValue

open Cert.ReferenceIdeal Cert.ReferenceIdeal.Gen Cert.ReferenceIdeal.HostRun
open Idealize.ShloMosaic Idealize.ShloMosaic.TcCoe Idealize.SL.Sem Idealize.ShloMosaic.StableHlo Idealize.ShloMosaic.ValueIdx
open Cert.Lib.TileMax

/-- The mask reshaped to [16, 2048, 2048]. -/
def mask3 (x : FVec Ideal S16x2048x2048x1 .f32) : S16x2048x2048.Idx → EReal :=
  shapeCast S16x2048x2048 x shapeCasts_S16x2048x2048x1_S16x2048x2048

/-- The reduced maximum compared with one half, as whole arrays. -/
def compared (A : S16x2048x2048.Idx → EReal) : IVec S16x128x128 1 :=
  cmpf (F := Ideal) (φ := .f32) .ogt (Host.reduce (FloatOps.maximumf (F := Ideal) (φ := .f32))
      (shapeCast S16x128x16x128x16 A shapeCasts_S16x2048x2048_S16x128x16x128x16)
      (constant (F := Ideal) S_ .f32 0xFF800000#32) reducesTo_S16x128x16x128x16_S16x128x128_d2_4 h_S_)
    (broadcastInDim S16x128x128 ![] bcast_S_S16x128x128 (constant (F := Ideal) S_ .f32 0x3F000000#32))

/-- The number of flags that are set, as the host's sum of the flags widened to 32 bits. -/
def countOf (p : IVec S16x128x128 1) : IVec S_ 32 :=
  Host.reduce IntOp.addi (extui 32 p natLt_1_32) (constantI S_ 32 0#32) reducesTo_S16x128x128_S_d0_1_2 h_S_

/-- The flags flattened to one vector. -/
def flat (p : IVec S16x128x128 1) : IVec S262144 1 := shapeCast S262144 p shapeCasts_S16x128x128_S262144

attribute [local irreducible] Host.reduce shapeCast broadcastInDim in
/-- The head's comparison is `compared` of the reshaped mask: the operations composed, nothing opened. -/
theorem head_compared (V : Valuation τ sig (Elt Ideal)) :
    after opsHead V (Proc.devRef .tc main_v4) = compared (mask3 (V (Proc.devRef .tc main_arg0))) := by
  after_results
  rfl

attribute [local irreducible] Host.reduce shapeCast broadcastInDim in
theorem head_count_of (V : Valuation τ sig (Elt Ideal)) :
    after opsHead V (Proc.devRef .tc main_v6) = countOf (after opsHead V (Proc.devRef .tc main_v4)) := by
  after_results
  rfl

attribute [local irreducible] Host.reduce shapeCast broadcastInDim in
theorem head_flat_of (V : Valuation τ sig (Elt Ideal)) :
    after opsHead V (Proc.devRef .tc main_v7) = flat (after opsHead V (Proc.devRef .tc main_v4)) := by
  after_results
  rfl

/-- Read at an index, the comparison is the tile's flag. -/
theorem compared_eq_flags (A : S16x2048x2048.Idx → EReal) : compared A = flags A := by
  funext i
  obtain ⟨b, y, x, rfl⟩ : ∃ (b : Fin 16) (y x : Fin 128), i = ix3 b y x := ⟨i 0, i 1, i 2, eq_ix3 i⟩
  unfold compared
  rw [cmpf_apply, host_tileMax A shapeCasts_S16x2048x2048_S16x128x16x128x16
    reducesTo_S16x128x16x128x16_S16x128x128_d2_4 (constant (F := Ideal) S_ .f32 0xFF800000#32) (fun _ => negInf_eq_bot) h_S_ b y x]
  rfl

/-- The comparison's result: each tile's flag. -/
theorem head_flags (V : Valuation τ sig (Elt Ideal)) :
    after opsHead V (Proc.devRef .tc main_v4) = flags (mask3 (V (Proc.devRef .tc main_arg0))) := by
  rw [head_compared, compared_eq_flags]

/-- The count. -/
theorem head_count (V : Valuation τ sig (Elt Ideal)) :
    after opsHead V (Proc.devRef .tc main_v6) = countOf (flags (mask3 (V (Proc.devRef .tc main_arg0)))) := by
  rw [head_count_of, head_flags]

/-- The flattened flags. -/
theorem head_flat (V : Valuation τ sig (Elt Ideal)) :
    after opsHead V (Proc.devRef .tc main_v7) = flat (flags (mask3 (V (Proc.devRef .tc main_arg0)))) := by
  rw [head_flat_of, head_flags]

/-- The head does not write the mask. -/
theorem head_mask (V : Valuation τ sig (Elt Ideal)) :
    after opsHead V (Proc.devRef .tc main_arg0) = V (Proc.devRef .tc main_arg0) := by
  after_results

end Cert.ReferenceIdeal.HeadValue

end
-- ==== Proof.Bridge.lean ====
/-
  The two programs' results are equal.

  The kernel program ends with its count of active blocks and its table of coordinates at the later lines' fold over the
  contents at the region's exit, where the kernel's result array holds the 32-bit flags of the reshaped mask. The
  reference ends with its count and table at its line's fold over the launch contents. The flags are the same on both
  sides — each is "the tile's maximum is above one half", the maximum taken in two arrangements of one supremum — so the
  counts are one sum of the same flags, the flattened flags are one vector (a 32-bit zero or one is positive exactly when
  the flag is set), and the compactions of that vector agree.
-/
import proofs.«147291_j70222715290212_2_alg».proof.Proof.Tails
import proofs.«147291_j70222715290212_2_alg».proof.Proof.KernelIdealValue
import proofs.«147291_j70222715290212_2_alg».proof.Proof.RefValue

set_option maxRecDepth 16384

noncomputable section

namespace Cert.Bridge

open Idealize.ShloMosaic Idealize.ShloMosaic.TcCoe Idealize.SL.Sem Idealize.ShloMosaic.StableHlo
open Cert.Lib.TileMax

/-- The kernel's result compared with zero and flattened, as whole arrays. -/
def kerFlat (z : IVec Cert.KernelIdeal.S16x128x128 32) : IVec Cert.KernelIdeal.S262144 1 :=
  shapeCast Cert.KernelIdeal.S262144
    (cmpi .sgt z (broadcastInDim Cert.KernelIdeal.S16x128x128 ![] Cert.KernelIdeal.Gen.bcast_S_S16x128x128 (constantI Cert.KernelIdeal.S_ 32 0#32)))
    Cert.KernelIdeal.Gen.shapeCasts_S16x128x128_S262144

/-- The sum of the kernel's result. -/
def kerCount (z : IVec Cert.KernelIdeal.S16x128x128 32) : IVec Cert.KernelIdeal.S_ 32 :=
  Host.reduce IntOp.addi z (constantI Cert.KernelIdeal.S_ 32 0#32)
    Cert.KernelIdeal.Gen.reducesTo_S16x128x128_S_d0_1_2 Cert.KernelIdeal.Gen.h_S_

attribute [local irreducible] Host.reduce shapeCast broadcastInDim in
/-- The kernel program's first later stretch, read at the flattened flags. -/
theorem ker_flat (W : Valuation Cert.KernelIdeal.τ Cert.KernelIdeal.sig (Elt Ideal)) :
    after Cert.KernelIdeal.Gen.hostOps1 W (Proc.devRef .tc Cert.KernelIdeal.main_v5)
      = kerFlat (W (Proc.devRef .tc Cert.KernelIdeal.main_v1)) := by
  after_results
  rfl

attribute [local irreducible] Host.reduce shapeCast broadcastInDim in
/-- … and at the count. -/
theorem ker_cnt (W : Valuation Cert.KernelIdeal.τ Cert.KernelIdeal.sig (Elt Ideal)) :
    after Cert.KernelIdeal.Gen.hostOps1 W (Proc.devRef .tc Cert.KernelIdeal.main_v4)
      = kerCount (W (Proc.devRef .tc Cert.KernelIdeal.main_v1)) := by
  after_results
  rfl

attribute [local irreducible] Host.reduce shapeCast in
/-- On the 32-bit flags of one mask, the kernel program's flattened comparison is the reference's flattened flags … -/
theorem kerFlat_flags32 (x : FVec Ideal Cert.KernelIdeal.S16x2048x2048x1 .f32) :
    kerFlat (flags32 (Cert.KernelIdeal.PoolValue.mask3 x))
      = Cert.ReferenceIdeal.HeadValue.flat (flags (Cert.ReferenceIdeal.HeadValue.mask3 x)) := by
  unfold kerFlat
  rw [sgt_flags32 (Cert.KernelIdeal.PoolValue.mask3 x)
    (broadcastInDim Cert.KernelIdeal.S16x128x128 ![] Cert.KernelIdeal.Gen.bcast_S_S16x128x128 (constantI Cert.KernelIdeal.S_ 32 0#32))
    (fun _ => rfl)]
  rfl

attribute [local irreducible] Host.reduce shapeCast in
/-- … and its sum is the reference's count. -/
theorem kerCount_flags32 (x : FVec Ideal Cert.KernelIdeal.S16x2048x2048x1 .f32) :
    kerCount (flags32 (Cert.KernelIdeal.PoolValue.mask3 x))
      = Cert.ReferenceIdeal.HeadValue.countOf (flags (Cert.ReferenceIdeal.HeadValue.mask3 x)) := by
  rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The contents at the region's exit: the kernel's result array at the 32-bit flags, every other buffer as the region
    found it. -/
abbrev exitContents (c : Dev Cert.KernelIdeal.nD) : Valuation Cert.KernelIdeal.τ Cert.KernelIdeal.sig (Elt Ideal) :=
  Pipeline.withArrays Cert.KernelIdeal.spec0 c (Cert.KernelIdeal.Pool.V0 m c)
    fun w => (Cert.KernelIdeal.Pool.dats m 0 c).arrAt w Cert.KernelIdeal.cfg0.N

/-- At the region's exit the kernel's result array holds the 32-bit flags of the reshaped mask. -/
theorem exit_v1 (c : Dev Cert.KernelIdeal.nD) :
    exitContents m c (Proc.devRef .tc Cert.KernelIdeal.main_v1)
      = flags32 (Cert.KernelIdeal.PoolValue.mask3 (m ((c : Thread Cert.KernelIdeal.nD Cert.KernelIdeal.τ).loc Cert.KernelIdeal.main_arg0))) :=
  (Pipeline.withArrays_arr Cert.KernelIdeal.spec0 Cert.KernelIdeal.Gen.launch0.win.arr_inj c _ _ 1).trans
    (Cert.KernelIdeal.PoolValue.final m c)

/-- THE COUNTS ARE EQUAL. -/
theorem counts_agree (c : Dev Cert.KernelIdeal.nD)
    (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after Cert.ReferenceIdeal.HostRun.ops (launchContents m' c) (Proc.devRef .tc Cert.ReferenceIdeal.main_v6)
      = Pipeline.afterTail₀ Cert.KernelIdeal.cfgs (Cert.KernelIdeal.Pool.dats m) 0 (Cert.KernelIdeal.Pool.V0 m) Cert.KernelIdeal.Pool.sfx c Cert.KernelIdeal.main_v4 := by
  unfold Pipeline.afterTail₀
  rw [Cert.Compaction.ref_count, Cert.ReferenceIdeal.HeadValue.head_count, Cert.Compaction.ker_count, ker_cnt]
  show _ = kerCount (exitContents m c (Proc.devRef .tc Cert.KernelIdeal.main_v1))
  rw [exit_v1, kerCount_flags32]
  show Cert.ReferenceIdeal.HeadValue.countOf (flags (Cert.ReferenceIdeal.HeadValue.mask3 (m' ((c.tc : Thread Cert.ReferenceIdeal.nD Cert.ReferenceIdeal.τ).loc Cert.ReferenceIdeal.main_arg0)))) = _
  rw [hagree]

/-- THE TABLES OF COORDINATES ARE EQUAL. -/
theorem tables_agree (c : Dev Cert.KernelIdeal.nD)
    (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after Cert.ReferenceIdeal.HostRun.ops (launchContents m' c) (Proc.devRef .tc Cert.ReferenceIdeal.main_v43)
      = Pipeline.afterTail₀ Cert.KernelIdeal.cfgs (Cert.KernelIdeal.Pool.dats m) 0 (Cert.KernelIdeal.Pool.V0 m) Cert.KernelIdeal.Pool.sfx c Cert.KernelIdeal.main_v41 := by
  unfold Pipeline.afterTail₀
  refine Cert.Compaction.tables_agree (launchContents m' c) (exitContents m c) ?_
  rw [Cert.ReferenceIdeal.HeadValue.head_flat, ker_flat]
  show _ = kerFlat (exitContents m c (Proc.devRef .tc Cert.KernelIdeal.main_v1))
  rw [exit_v1, kerFlat_flags32]
  show Cert.ReferenceIdeal.HeadValue.flat (flags (Cert.ReferenceIdeal.HeadValue.mask3 (m' ((c.tc : Thread Cert.ReferenceIdeal.nD Cert.ReferenceIdeal.τ).loc Cert.ReferenceIdeal.main_arg0)))) = _
  rw [hagree]

/-- The reference leaves the mask as launched. -/
theorem ref_keeps_mask (c : Dev Cert.ReferenceIdeal.nD) :
    after Cert.ReferenceIdeal.HostRun.ops (launchContents m' c) (Proc.devRef .tc Cert.ReferenceIdeal.main_arg0)
      = m' ((c.tc : Thread Cert.ReferenceIdeal.nD Cert.ReferenceIdeal.τ).loc Cert.ReferenceIdeal.main_arg0) := by
  rw [Cert.Compaction.ref_mask, Cert.ReferenceIdeal.HeadValue.head_mask]

end Cert.Bridge

end
-- ==== Proof.lean ====
/-
  The certificate of the block-mask pooling kernel against its reference.

  The kernel program reshapes a mask of shape [16, 2048, 2048, 1] to [16, 2048, 2048], computes on the device, for each
  16 x 16 tile, whether the tile's maximum is above one half (as a 32-bit zero or one), and then on the host counts the
  flags that are set and compacts their positions into a table of (image, block row, block column) triples, filled with
  minus one. The reference takes the maximum of every tile in one host reduction, compares it with one half, and counts
  and compacts the same way.

  Frames. Each program terminates on every weakly fair execution and leaves the mask unchanged: the kernel programs by
  the launch of their one region continued by the host lines (the body stores one function of the strip it loads, and no
  host line writes the mask), the reference as a straight line of host operations.

  Values, on the extended reals. A maximum from minus infinity over a tile is the supremum of the tile's entries whatever
  the order and grouping of the comparisons, so the device's rows-then-columns maximum and the host's two-axis reduction
  are one number, and their comparisons with one half are one flag; from the flags on, the two programs run the same
  operations. No finiteness of the mask is used. The idealization rewrote nothing in the kernel, so it is preserved
  trivially.
-/
import proofs.«147291_j70222715290212_2_alg».proof.Defs
import proofs.«147291_j70222715290212_2_alg».proof.Proof.Gen.Kernel
import proofs.«147291_j70222715290212_2_alg».proof.Proof.Gen.KernelIdeal
import proofs.«147291_j70222715290212_2_alg».proof.Proof.Gen.ReferenceIdeal
import proofs.«147291_j70222715290212_2_alg».proof.Proof.Gen.Pre_finite_inputs
import proofs.«147291_j70222715290212_2_alg».proof.Proof.KernelRun
import proofs.«147291_j70222715290212_2_alg».proof.Proof.KernelIdealRun
import proofs.«147291_j70222715290212_2_alg».proof.Proof.RefRun
import proofs.«147291_j70222715290212_2_alg».proof.Proof.Bridge
import Idealize.ShloMosaic.Adequacy
import Idealize.ShloMosaic.Init

noncomputable section

namespace Cert.Proof

open Idealize.ShloMosaic Idealize.SL.Sem Idealize.ShloMosaic.TcCoe

namespace Claims

theorem frame_kernel : Cert.frame_Kernel := fun m ρ _ => Cert.Kernel.Pool.frame m ρ

theorem frame_kernelIdeal : Cert.frame_KernelIdeal := fun m ρ _ => Cert.KernelIdeal.Pool.frame m ρ

/-- The reference's run with everything but the mask forgotten. -/
theorem frame_reference : Cert.frame_ReferenceIdeal := fun m ρ _ =>
  (θ_run Cert.ReferenceIdeal.defs _ _).mono
    (fun _ h c => (h c Cert.ReferenceIdeal.main_arg0).trans (Cert.Bridge.ref_keeps_mask m c))
    (Cert.ReferenceIdeal.HostRun.run (F := Ideal) m ρ)

theorem preserves : Cert.preserves_Kernel_KernelIdeal := trivial

/-- Both programs run; the kernel program's count and table are the later lines' fold at the region's exit, and the
    reference's count and table are equal to them. -/
theorem algebraic : Cert.algebraic_KernelIdeal_ReferenceIdeal := by
  intro m ρ m' ρ' _ hagree
  refine ⟨fun c => Pipeline.afterTail₀ Cert.KernelIdeal.cfgs (Cert.KernelIdeal.Pool.dats m) 0 (Cert.KernelIdeal.Pool.V0 m) Cert.KernelIdeal.Pool.sfx c Cert.KernelIdeal.main_v4,
    fun c => Pipeline.afterTail₀ Cert.KernelIdeal.cfgs (Cert.KernelIdeal.Pool.dats m) 0 (Cert.KernelIdeal.Pool.V0 m) Cert.KernelIdeal.Pool.sfx c Cert.KernelIdeal.main_v41, ?_, ?_⟩
  · exact (θ_run Cert.KernelIdeal.defs _ _).mono
      (fun _ h c => ⟨(h c).2 Cert.KernelIdeal.main_v4 (Pipeline.mem_restRefs_of Cert.KernelIdeal.main_v4 (by decide) (by decide)),
        (h c).2 Cert.KernelIdeal.main_v41 (Pipeline.mem_restRefs_of Cert.KernelIdeal.main_v41 (by decide) (by decide)),
        ((h c).2 Cert.KernelIdeal.main_arg0 (Pipeline.mem_restRefs_of Cert.KernelIdeal.main_arg0 (by decide) (by decide))).trans
          (Cert.KernelIdeal.Pool.kept_arg0 m c)⟩)
      (Cert.KernelIdeal.Pool.run_main m ρ)
  · exact (θ_run Cert.ReferenceIdeal.defs _ _).mono
      (fun _ h c => ⟨(h c Cert.ReferenceIdeal.main_v6).trans (Cert.Bridge.counts_agree m m' c (hagree c)),
        (h c Cert.ReferenceIdeal.main_v43).trans (Cert.Bridge.tables_agree m m' c (hagree c)),
        (h c Cert.ReferenceIdeal.main_arg0).trans (Cert.Bridge.ref_keeps_mask m' c)⟩)
      (Cert.ReferenceIdeal.HostRun.run (F := Ideal) m' ρ')

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_reference, Claims.preserves, Claims.algebraic⟩

end Cert.Proof

end
